-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S384x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x640000 32) (main_arg2 : FVec F S640000x128 .f32) (main_arg3 : FVec F S256x128 .f32) (main_arg4 : FVec F S128 .f32) (main_arg5 : FVec F S128x128 .f32) (main_arg6 : FVec F S128 .f32) (main_arg7 : FVec F S384x128 .f32) (main_arg8 : FVec F S128 .f32) (main_arg9 : FVec F S128x128 .f32) (main_arg10 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S5120x128 : Shape := ⟨2, ![5120, 128]⟩
abbrev S5120x384 : Shape := ⟨2, ![5120, 384]⟩
abbrev S5120x256 : Shape := ⟨2, ![5120, 256]⟩

abbrev nBuf : Space → Nat
  | .hbm => 49
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S10000x128, .bf16⟩
  | .hbm, ⟨16, _⟩ => ⟨S640000x128, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .bf16⟩
  | .hbm, ⟨35, _⟩ => ⟨S384x128, .bf16⟩
  | .hbm, ⟨36, _⟩ => ⟨S128x128, .bf16⟩
  | .hbm, ⟨37, _⟩ => ⟨S256x128, .bf16⟩
  | .hbm, ⟨38, _⟩ => ⟨S128x128, .bf16⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S10000x128, .f32⟩
  | .hbm, ⟨47, _⟩ => ⟨S640000x1, .i32⟩
  | .hbm, ⟨48, _⟩ => ⟨S10000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x128, .bf16⟩
  | .local _ .vmem, ⟨5, _⟩ => ⟨S5120x128, .bf16⟩
  | .local _ .vmem, ⟨6, _⟩ => ⟨S384x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S256x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S5120x128, .f32⟩
  | .local _ .vmem, ⟨15, _⟩ => ⟨S5120x128, .f32⟩
  | .local _ .vmem, ⟨16, _⟩ => ⟨S5120x128, .f32⟩
  | .local _ .vmem, ⟨17, _⟩ => ⟨S5120x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5120x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5120x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  concatenates_S5120x128_S5120x128_S5120x128_S5120x384_d1 : Shape.Concatenates [S5120x128, S5120x128, S5120x128] S5120x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S5120x128_S5120x128_S5120x256_d1 : Shape.Concatenates [S5120x128, S5120x128] S5120x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S5120x384_S384x128_S5120x128_1_0_0_1_n_n_wf : DotDims.WF S5120x384 S384x128 S5120x128 [1] [0] [0] [1] [] []
  dot_S5120x128_S128x128_S5120x128_1_0_0_1_n_n_wf : DotDims.WF S5120x128 S128x128 S5120x128 [1] [0] [0] [1] [] []
  dot_S5120x256_S256x128_S5120x128_1_0_0_1_n_n_wf : DotDims.WF S5120x256 S256x128 S5120x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S640000x128.size a
  hwx0_2 : ∀ i : grid0.Coords, EltTy.bits .bf16 = 32 ∨ (Rect.block (s := S640000x128) S5120x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5120x128.size a ≤ S640000x128.size a
  hwx0_11 : ∀ i : grid0.Coords, EltTy.bits .f32 = 32 ∨ (Rect.block (s := S640000x128) S5120x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5120x128.size a ≤ S640000x128.size a
  hwx0_12 : ∀ i : grid0.Coords, EltTy.bits .f32 = 32 ∨ (Rect.block (s := S640000x128) S5120x128.size (cc0_transform_12 i) (hinb0_12 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S5120x384_S384x128_S5120x128_1_0_0_1_n_n : DotDims S5120x384 S384x128 S5120x128 where
  lhsContracting := [1]
  rhsContracting := [0]
  lhsNonContracting := [0]
  rhsNonContracting := [1]
  lhsBatch := []
  rhsBatch := []
  wf := dot_S5120x384_S384x128_S5120x128_1_0_0_1_n_n_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x256_S256x128_S5120x128_1_0_0_1_n_n : DotDims S5120x256 S256x128 S5120x128 where
  lhsContracting := [1]
  rhsContracting := [0]
  lhsNonContracting := [0]
  rhsNonContracting := [1]
  lhsBatch := []
  rhsBatch := []
  wf := dot_S5120x256_S256x128_S5120x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v12) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5120x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28_0) S5120x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v28_1) S5120x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S640000x256 : Shape := ⟨2, ![640000, 256]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .i1⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S640000x128, .f32⟩
  | .hbm, ⟨53, _⟩ => ⟨S1x128, .f32⟩
  | .hbm, ⟨54, _⟩ => ⟨S640000x128, .f32⟩
  | .hbm, ⟨55, _⟩ => ⟨S640000x128, .f32⟩
  | .hbm, ⟨56, _⟩ => ⟨S640000x256, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S640000x128, .f32⟩
  | .hbm, ⟨66, _⟩ => ⟨S640000x128, .i1⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S640000x128, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S1x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S10000x128, .f32⟩
  | .hbm, ⟨81, _⟩ => ⟨S640000x1, .i32⟩
  | .hbm, ⟨82, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  concatenates_S640000x128_S640000x128_S640000x256_d1 : Shape.Concatenates [S640000x128, S640000x128] S640000x256 1
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibConcatThree.lean ====
/-
  Three arrays laid side by side, read at an index.

  Three `a × b` arrays concatenated along axis 1 into an `a × c` array (so `c = 3·b`): at `(p, j)` the result reads
  the first array at `(p, j)` when `j < b`, the second at `(p, j − b)` when `b ≤ j < 2b`, the third at
  `(p, j − 2b)` beyond. The same for three length-`b` vectors concatenated into a length-`c` vector. Stated with the
  column split as a hypothesis `j = offset + q`, for any element type and any extents.
-/
import Idealize.ShloMosaic.Lib.Pipeline.Value
import Idealize.ShloMosaic.Lib.ValueIdx

noncomputable section

namespace Cert.Lib.ConcatThree

open Idealize.ShloMosaic Idealize.ShloMosaic.ValueIdx

variable {α : Type} {a b c : Nat}

/-- Columns `[0, b)` of the concatenation are the first array. -/
theorem cols_first (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = q.val) :
    concatenate ⟨2, ![a, c]⟩ (1 : Fin 2) [⟨⟨2, ![a, b]⟩, x0⟩, ⟨⟨2, ![a, b]⟩, x1⟩, ⟨⟨2, ![a, b]⟩, x2⟩] h (ix2 p j) = x0 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 0 (show (0 : Nat) < 3 by omega) ⟨2, ![a, b]⟩ x0 rfl rfl 0 rfl (ix2 p q)
    (fun d hd => by
      match d with
      | ⟨0, _⟩ => rfl
      | ⟨1, _⟩ => exact absurd rfl hd)
    (by show 0 + q.val = j.val; omega)

/-- Columns `[b, 2b)` are the second array. -/
theorem cols_second (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = b + q.val) :
    concatenate ⟨2, ![a, c]⟩ (1 : Fin 2) [⟨⟨2, ![a, b]⟩, x0⟩, ⟨⟨2, ![a, b]⟩, x1⟩, ⟨⟨2, ![a, b]⟩, x2⟩] h (ix2 p j) = x1 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 1 (show (1 : Nat) < 3 by omega) ⟨2, ![a, b]⟩ x1 rfl rfl b (by simp) (ix2 p q)
    (fun d hd => by
      match d with
      | ⟨0, _⟩ => rfl
      | ⟨1, _⟩ => exact absurd rfl hd)
    (by show b + q.val = j.val; omega)

/-- Columns `[2b, 3b)` are the third array. -/
theorem cols_third (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = b + b + q.val) :
    concatenate ⟨2, ![a, c]⟩ (1 : Fin 2) [⟨⟨2, ![a, b]⟩, x0⟩, ⟨⟨2, ![a, b]⟩, x1⟩, ⟨⟨2, ![a, b]⟩, x2⟩] h (ix2 p j) = x2 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 2 (show (2 : Nat) < 3 by omega) ⟨2, ![a, b]⟩ x2 rfl rfl (b + b) (by simp) (ix2 p q)
    (fun d hd => by
      match d with
      | ⟨0, _⟩ => rfl
      | ⟨1, _⟩ => exact absurd rfl hd)
    (by show b + b + q.val = j.val; omega)

/-- Entries `[0, b)` of three vectors end to end are the first vector. -/
theorem vec_first (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = q.val) :
    concatenate ⟨1, ![c]⟩ (0 : Fin 1) [⟨⟨1, ![b]⟩, x0⟩, ⟨⟨1, ![b]⟩, x1⟩, ⟨⟨1, ![b]⟩, x2⟩] h (ix1 j) = x0 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 0 (show (0 : Nat) < 3 by omega) ⟨1, ![b]⟩ x0 rfl rfl 0 rfl (ix1 q)
    (fun d hd => by
      match d with
      | ⟨0, _⟩ => exact absurd rfl hd)
    (by show 0 + q.val = j.val; omega)

/-- Entries `[b, 2b)` are the second vector. -/
theorem vec_second (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = b + q.val) :
    concatenate ⟨1, ![c]⟩ (0 : Fin 1) [⟨⟨1, ![b]⟩, x0⟩, ⟨⟨1, ![b]⟩, x1⟩, ⟨⟨1, ![b]⟩, x2⟩] h (ix1 j) = x1 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 1 (show (1 : Nat) < 3 by omega) ⟨1, ![b]⟩ x1 rfl rfl b (by simp) (ix1 q)
    (fun d hd => by
      match d with
      | ⟨0, _⟩ => exact absurd rfl hd)
    (by show b + q.val = j.val; omega)

/-- Entries `[2b, 3b)` are the third vector. -/
theorem vec_third (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = b + b + q.val) :
    concatenate ⟨1, ![c]⟩ (0 : Fin 1) [⟨⟨1, ![b]⟩, x0⟩, ⟨⟨1, ![b]⟩, x1⟩, ⟨⟨1, ![b]⟩, x2⟩] h (ix1 j) = x2 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 2 (show (2 : Nat) < 3 by omega) ⟨1, ![b]⟩ x2 rfl rfl (b + b) (by simp) (ix1 q)
    (fun d hd => by
      match d with
      | ⟨0, _⟩ => exact absurd rfl hd)
    (by show b + b + q.val = j.val; omega)

end Cert.Lib.ConcatThree

end
-- ==== Proof.LibConcatTwo.lean ====
/-
  Two arrays laid side by side, read at an index.

  Two `a × b` arrays concatenated along axis 1 into an `a × c` array (so `c = 2·b`): at `(p, j)` the result reads
  the first array at `(p, j)` when `j < b` and the second at `(p, j − b)` beyond. Stated with the column split as a
  hypothesis `j = offset + q`, for any element type and any extents.
-/
import Idealize.ShloMosaic.Lib.Pipeline.Value
import Idealize.ShloMosaic.Lib.ValueIdx

noncomputable section

namespace Cert.Lib.ConcatTwo

open Idealize.ShloMosaic Idealize.ShloMosaic.ValueIdx

variable {α : Type} {a b c : Nat}

/-- Columns `[0, b)` of the concatenation are the first array. -/
theorem cols_left (x0 x1 : (⟨2, ![a, b]⟩ : Shape).Idx → α)
    (h : Shape.Concatenates [(⟨2, ![a, b]⟩ : Shape), ⟨2, ![a, b]⟩] ⟨2, ![a, c]⟩ (1 : Fin 2))
    (p : Fin a) (q : Fin b) (j : Fin c) (hj : j.val = q.val) :
    concatenate ⟨2, ![a, c]⟩ (1 : Fin 2) [⟨⟨2, ![a, b]⟩, x0⟩, ⟨⟨2, ![a, b]⟩, x1⟩] h (ix2 p j) = x0 (ix2 p q) :=
  concatenate_apply_piece (t := ⟨2, ![a, c]⟩) (1 : Fin 2) ([⟨⟨2, ![a, b]⟩, x0⟩, ⟨⟨2, ![a, b]⟩, x1⟩] : List ((s : Shape) × (s.Idx → α))) h (ix2 p j) 0 (show (0 : Nat) < 2 by omega) ⟨2, ![a, b]⟩ x0 rfl rfl 0 rfl (ix2 p q)
    (fun d hd => by
      match d with
      | ⟨0, _⟩ => rfl
      | ⟨1, _⟩ => exact absurd rfl hd)
    (by show 0 + q.val = j.val; omega)

/-- Columns `[b, 2b)` are the second array. -/
theorem cols_right (x0 x1 : (⟨2, ![a, b]⟩ : Shape).Idx → α)
    (h : Shape.Concatenates [(⟨2, ![a, b]⟩ : Shape), ⟨2, ![a, b]⟩] ⟨2, ![a, c]⟩ (1 : Fin 2))
    (p : Fin a) (q : Fin b) (j : Fin c) (hj : j.val = b + q.val) :
    concatenate ⟨2, ![a, c]⟩ (1 : Fin 2) [⟨⟨2, ![a, b]⟩, x0⟩, ⟨⟨2, ![a, b]⟩, x1⟩] h (ix2 p j) = x1 (ix2 p q) :=
  concatenate_apply_piece (t := ⟨2, ![a, c]⟩) (1 : Fin 2) ([⟨⟨2, ![a, b]⟩, x0⟩, ⟨⟨2, ![a, b]⟩, x1⟩] : List ((s : Shape) × (s.Idx → α))) h (ix2 p j) 1 (show (1 : Nat) < 2 by omega) ⟨2, ![a, b]⟩ x1 rfl rfl b (by simp) (ix2 p q)
    (fun d hd => by
      match d with
      | ⟨0, _⟩ => rfl
      | ⟨1, _⟩ => exact absurd rfl hd)
    (by show b + q.val = j.val; omega)

end Cert.Lib.ConcatTwo

end
-- ==== Proof.EdgeMlp.lean ====
/-
  Two-layer perceptrons with a softplus between the layers, read one output entry at a time.

  For an input row `r` of length `c`, weights `W1 : c × 128`, `W2 : 128 × 128` and biases `b1`, `b2` of length 128,

      mlp r W1 b1 W2 b2 q  =  ∑ k, sp (∑ k', r k' · W1 (k', k) + b1 k) · W2 (k, q)  +  b2 q,

  where `sp x = max x 0 + log1p (exp (−|x|))` is the overflow-free form of `log (1 + eˣ)`. An output row depends on
  ONE input row only, so the same formula describes a product over a block of rows and over the whole array of rows.

  The formula is met by two spellings of the same computation over the extended reals:
    * a matrix unit's product into a zero accumulator, a `1 × 128` bias row broadcast down the rows, the softplus
      written with `0 − |x|`, and roundings to a narrower format (the identity on exact values);
    * a general dot product, a length-128 bias broadcast first to a row and then down the rows, and the softplus
      written with a negation.
  In both the guard `x ≠ x` of the softplus never fires: the extended reals have no unordered element.

  The input rows are concatenations: three rows of length 128 end to end (`cat3`), or two (`cat2`).
-/
import Idealize.ShloMosaic.Lib.ValueIdx
import Idealize.ShloMosaic.Lib.Pipeline.Value
import Idealize.ShloMosaic.PureOps.Ideal.Laws
import proofs.«144321_j74637941670346_2_alg».proof.Proof.LibPlainDot
import proofs.«144321_j74637941670346_2_alg».proof.Proof.LibRowBroadcasts
import proofs.«144321_j74637941670346_2_alg».proof.Proof.LibConcatThree
import proofs.«144321_j74637941670346_2_alg».proof.Proof.LibConcatTwo

noncomputable section

namespace Cert.EdgeMlp

open Idealize.ShloMosaic Idealize.ShloMosaic.ValueIdx Cert.Lib
open scoped BigOperators

/-! ## The softplus -/

/-- `log (1 + eˣ)` in its overflow-free form. -/
def sp (x : EReal) : EReal := max x 0 + Ideal.log1p (Ideal.exp (-(max x (-x))))

/-- The softplus of an array spelt with `0 − |x − 0|` and an ordered `x ≠ x` guard. -/
def softplusSub {s : Shape} (v : FVec Ideal s .f32) : FVec Ideal s .f32 :=
  select (cmpf .one (subf v (broadcast s (Scalar.ofBits .f32 0x00000000#32))) (subf v (broadcast s (Scalar.ofBits .f32 0x00000000#32))))
    (addf v (broadcast s (Scalar.ofBits .f32 0x00000000#32)))
    (addf (maximumf v (broadcast s (Scalar.ofBits .f32 0x00000000#32)))
      (log1p (exp (subf (broadcast s (Scalar.ofBits .f32 0x00000000#32)) (absf (subf v (broadcast s (Scalar.ofBits .f32 0x00000000#32))))))))

/-- It is `sp`, entry by entry: the guard never fires, `x − 0 = x` and `0 − y = −y`. -/
theorem softplusSub_apply {s : Shape} (v : FVec Ideal s .f32) (i : s.Idx) : softplusSub v i = sp (v i) := by
  unfold softplusSub
  have hz : Scalar.ofBits (F := Ideal) .f32 0x00000000#32 = (0 : EReal) := Ideal.ofBits_zero_f32
  simp only [select, cmpf, subf, addf, maximumf, log1p, exp, absf, broadcast, hz]
  show Scalar.select (Ideal.cmp .one (v i - 0) (v i - 0)) (v i + 0) (max (v i) 0 + Ideal.log1p (Ideal.exp (0 - max (v i - 0) (-(v i - 0))))) = _
  rw [sub_zero, zero_sub]
  unfold sp
  simp [Scalar.select, Ideal.cmp]

/-- The softplus of an array spelt with a negation and an unordered `x ≠ x` guard. -/
def softplusNeg {s : Shape} (h : (⟨0, ![]⟩ : Shape).BroadcastsInDim s ![]) (v : FVec Ideal s .f32) : FVec Ideal s .f32 :=
  select (cmpf .une (subf v (broadcastInDim s ![] h (constant ⟨0, ![]⟩ .f32 0x00000000#32))) (subf v (broadcastInDim s ![] h (constant ⟨0, ![]⟩ .f32 0x00000000#32))))
    (addf v (broadcastInDim s ![] h (constant ⟨0, ![]⟩ .f32 0x00000000#32)))
    (addf (maximumf v (broadcastInDim s ![] h (constant ⟨0, ![]⟩ .f32 0x00000000#32)))
      (Host.log1p (Host.exp (Host.negf (Host.absf (subf v (broadcastInDim s ![] h (constant ⟨0, ![]⟩ .f32 0x00000000#32))))))))

/-- It is `sp`, entry by entry. -/
theorem softplusNeg_apply {s : Shape} (h : (⟨0, ![]⟩ : Shape).BroadcastsInDim s ![]) (v : FVec Ideal s .f32) (i : s.Idx) :
    softplusNeg h v i = sp (v i) := by
  unfold softplusNeg
  simp only [select, cmpf, subf, addf, maximumf, Host.log1p, Host.exp, Host.negf, Host.absf, broadcastInDim, constant]
  have hz : FloatOps.ofBits (F := Ideal) .f32 0x00000000#32 = (0 : EReal) := Ideal.ofBits_zero_f32
  rw [hz]
  show Scalar.select (Ideal.cmp .une (v i - 0) (v i - 0)) (v i + 0) (max (v i) 0 + Ideal.log1p (Ideal.exp (-(max (v i - 0) (-(v i - 0)))))) = _
  rw [sub_zero]
  unfold sp
  simp [Scalar.select, Ideal.cmp]

/-! ## Rows end to end -/

/-- Three rows of length 128 end to end. -/
def cat3 {α : Type} (r0 r1 r2 : Fin 128 → α) (k : Fin 384) : α :=
  if h : k.val < 128 then r0 ⟨k.val, h⟩
  else if h' : k.val < 256 then r1 ⟨k.val - 128, by omega⟩
  else r2 ⟨k.val - 256, by have := k.isLt; omega⟩

/-- Two rows of length 128 end to end. -/
def cat2 {α : Type} (r0 r1 : Fin 128 → α) (k : Fin 256) : α :=
  if h : k.val < 128 then r0 ⟨k.val, h⟩ else r1 ⟨k.val - 128, by have := k.isLt; omega⟩

/-- A row of three `a × 128` arrays laid side by side is the three rows end to end. -/
theorem concat3_row {α : Type} {a : Nat} (A B C : (⟨2, ![a, 128]⟩ : Shape).Idx → α)
    (h : Shape.Concatenates [(⟨2, ![a, 128]⟩ : Shape), ⟨2, ![a, 128]⟩, ⟨2, ![a, 128]⟩] ⟨2, ![a, 384]⟩ (1 : Fin 2))
    (p : Fin a) (k : Fin 384) :
    concatenate ⟨2, ![a, 384]⟩ (1 : Fin 2) [⟨⟨2, ![a, 128]⟩, A⟩, ⟨⟨2, ![a, 128]⟩, B⟩, ⟨⟨2, ![a, 128]⟩, C⟩] h (ix2 p k)
      = cat3 (fun j => A (ix2 p j)) (fun j => B (ix2 p j)) (fun j => C (ix2 p j)) k := by
  unfold cat3
  by_cases h1 : k.val < 128
  · rw [dif_pos h1]
    exact ConcatThree.cols_first A B C h p ⟨k.val, h1⟩ k rfl
  · rw [dif_neg h1]
    by_cases h2 : k.val < 256
    · rw [dif_pos h2]
      exact ConcatThree.cols_second A B C h p ⟨k.val - 128, by omega⟩ k (by show k.val = 128 + (k.val - 128); omega)
    · rw [dif_neg h2]
      exact ConcatThree.cols_third A B C h p ⟨k.val - 256, by have := k.isLt; omega⟩ k
        (by show k.val = 128 + 128 + (k.val - 256); omega)

/-- A row of two `a × 128` arrays laid side by side is the two rows end to end. -/
theorem concat2_row {α : Type} {a : Nat} (A B : (⟨2, ![a, 128]⟩ : Shape).Idx → α)
    (h : Shape.Concatenates [(⟨2, ![a, 128]⟩ : Shape), ⟨2, ![a, 128]⟩] ⟨2, ![a, 256]⟩ (1 : Fin 2))
    (p : Fin a) (k : Fin 256) :
    concatenate ⟨2, ![a, 256]⟩ (1 : Fin 2) [⟨⟨2, ![a, 128]⟩, A⟩, ⟨⟨2, ![a, 128]⟩, B⟩] h (ix2 p k)
      = cat2 (fun j => A (ix2 p j)) (fun j => B (ix2 p j)) k := by
  unfold cat2
  by_cases h1 : k.val < 128
  · rw [dif_pos h1]
    exact ConcatTwo.cols_left A B h p ⟨k.val, h1⟩ k rfl
  · rw [dif_neg h1]
    exact ConcatTwo.cols_right A B h p ⟨k.val - 128, by have := k.isLt; omega⟩ k (by show k.val = 128 + (k.val - 128); omega)

/-! ## The perceptron -/

/-- One output entry of the two-layer perceptron on the input row `row`. -/
def mlp {c : Nat} (row : Fin c → EReal) (W1 : (⟨2, ![c, 128]⟩ : Shape).Idx → EReal) (b1 : Fin 128 → EReal)
    (W2 : (⟨2, ![128, 128]⟩ : Shape).Idx → EReal) (b2 : Fin 128 → EReal) (q : Fin 128) : EReal :=
  (∑ k : Fin 128, sp ((∑ k' : Fin c, row k' * W1 (ix2 k' k)) + b1 k) * W2 (ix2 k q)) + b2 q

theorem mlp_congr {c : Nat} {r r' : Fin c → EReal} {W1 W1' : (⟨2, ![c, 128]⟩ : Shape).Idx → EReal} {b1 b1' : Fin 128 → EReal}
    {W2 W2' : (⟨2, ![128, 128]⟩ : Shape).Idx → EReal} {b2 b2' : Fin 128 → EReal} {q q' : Fin 128}
    (hr : r = r') (h1 : W1 = W1') (hb1 : b1 = b1') (h2 : W2 = W2') (hb2 : b2 = b2') (hq : q = q') :
    mlp r W1 b1 W2 b2 q = mlp r' W1' b1' W2' b2' q' := by
  subst hr h1 hb1 h2 hb2 hq; rfl

theorem cat3_congr {α : Type} {r0 r0' r1 r1' r2 r2' : Fin 128 → α} (h0 : r0 = r0') (h1 : r1 = r1') (h2 : r2 = r2') :
    cat3 r0 r1 r2 = cat3 r0' r1' r2' := by
  subst h0 h1 h2; rfl

theorem cat2_congr {α : Type} {r0 r0' r1 r1' : Fin 128 → α} (h0 : r0 = r0') (h1 : r1 = r1') :
    cat2 r0 r1 = cat2 r0' r1' := by
  subst h0 h1; rfl

/-- Row `p` of an `a × b` array. -/
abbrev rowOf {α : Type} {a b : Nat} (x : (⟨2, ![a, b]⟩ : Shape).Idx → α) (p : Fin a) : Fin b → α := fun j => x (ix2 p j)

/-- A length-`b` vector as a function of its position. -/
abbrev vecOf {α : Type} {b : Nat} (x : (⟨1, ![b]⟩ : Shape).Idx → α) : Fin b → α := fun j => x (ix1 j)

/-- Row 0 of a length-`b` vector cast to a `1 × b` row is the vector. -/
theorem castRow_row {α : Type} {b : Nat} (v : (⟨1, ![b]⟩ : Shape).Idx → α)
    (hc : (⟨1, ![b]⟩ : Shape).ShapeCasts ⟨2, ![1, b]⟩) :
    rowOf (shapeCast ⟨2, ![1, b]⟩ v hc) 0 = vecOf v := by
  funext q
  exact shapeCast_apply v hc (ix2 (0 : Fin 1) q) (ix1 q) (by
    rw [Shape.rowMajor_val_two, Shape.rowMajor_val_one]
    show q.val = (0 : Fin 1).val * b + q.val
    simp)

section Unit
variable {a c : Nat} {φ₁ φ₂ : FTy}
  (wf : DotDims.WF ⟨2, ![a, c]⟩ ⟨2, ![c, 128]⟩ ⟨2, ![a, 128]⟩ [1] [0] [0] [1] [] [])
  (hW : (⟨2, ![c, 128]⟩ : Shape).ShapeCasts ⟨2, ![c, 128]⟩)
  (hB : (⟨2, ![1, 128]⟩ : Shape).ShapeCasts ⟨2, ![1, 128]⟩)
  (hb : (⟨2, ![1, 128]⟩ : Shape).Broadcasts ⟨2, ![a, 128]⟩)

/-- One linear layer as a matrix unit computes it: the product into a zero accumulator plus the `1 × 128` bias row
    broadcast down the rows. -/
def unitLayer (L : FVec Ideal ⟨2, ![a, c]⟩ φ₁) (W : FVec Ideal ⟨2, ![c, 128]⟩ φ₂) (bias : FVec Ideal ⟨2, ![1, 128]⟩ .f32) :
    FVec Ideal ⟨2, ![a, 128]⟩ .f32 :=
  addf (matmul (PlainDot.dims wf) none L (shapeCast ⟨2, ![c, 128]⟩ W hW) (constant ⟨2, ![a, 128]⟩ .f32 0x00000000#32))
    (broadcastTo ⟨2, ![a, 128]⟩ (shapeCast ⟨2, ![1, 128]⟩ bias hB) hb)

theorem unitLayer_apply (L : FVec Ideal ⟨2, ![a, c]⟩ φ₁) (W : FVec Ideal ⟨2, ![c, 128]⟩ φ₂)
    (bias : FVec Ideal ⟨2, ![1, 128]⟩ .f32) (p : Fin a) (q : Fin 128) :
    unitLayer wf hW hB hb L W bias (ix2 p q) = (∑ k : Fin c, L (ix2 p k) * W (ix2 k q)) + bias (ix2 (0 : Fin 1) q) := by
  unfold unitLayer
  rw [shapeCast_self, shapeCast_self]
  show matmul (PlainDot.dims wf) none L W (constant ⟨2, ![a, 128]⟩ .f32 0x00000000#32) (ix2 p q)
      + broadcastTo ⟨2, ![a, 128]⟩ bias hb (ix2 p q) = _
  rw [PlainDot.matmul_zero_apply, Rows.bcastRow_apply]

end Unit

/-- The perceptron as a matrix unit computes it, on an `a × c` array of input rows in a narrow format: layer, softplus,
    rounding to the narrow format, layer. -/
def unitMlp {a c : Nat}
    (wf1 : DotDims.WF ⟨2, ![a, c]⟩ ⟨2, ![c, 128]⟩ ⟨2, ![a, 128]⟩ [1] [0] [0] [1] [] [])
    (wf2 : DotDims.WF ⟨2, ![a, 128]⟩ ⟨2, ![128, 128]⟩ ⟨2, ![a, 128]⟩ [1] [0] [0] [1] [] [])
    (hW1 : (⟨2, ![c, 128]⟩ : Shape).ShapeCasts ⟨2, ![c, 128]⟩)
    (hW2 : (⟨2, ![128, 128]⟩ : Shape).ShapeCasts ⟨2, ![128, 128]⟩)
    (hB : (⟨2, ![1, 128]⟩ : Shape).ShapeCasts ⟨2, ![1, 128]⟩)
    (hb : (⟨2, ![1, 128]⟩ : Shape).Broadcasts ⟨2, ![a, 128]⟩)
    (hlt : FTy.bits .bf16 < FTy.bits .f32)
    (L : FVec Ideal ⟨2, ![a, c]⟩ .bf16) (W1 : FVec Ideal ⟨2, ![c, 128]⟩ .bf16) (b1 : FVec Ideal ⟨2, ![1, 128]⟩ .f32)
    (W2 : FVec Ideal ⟨2, ![128, 128]⟩ .bf16) (b2 : FVec Ideal ⟨2, ![1, 128]⟩ .f32) : FVec Ideal ⟨2, ![a, 128]⟩ .f32 :=
  unitLayer wf2 hW2 hB hb (truncf .bf16 (softplusSub (unitLayer wf1 hW1 hB hb L W1 b1)) hlt) W2 b2

theorem unitMlp_apply {a c : Nat}
    (wf1 : DotDims.WF ⟨2, ![a, c]⟩ ⟨2, ![c, 128]⟩ ⟨2, ![a, 128]⟩ [1] [0] [0] [1] [] [])
    (wf2 : DotDims.WF ⟨2, ![a, 128]⟩ ⟨2, ![128, 128]⟩ ⟨2, ![a, 128]⟩ [1] [0] [0] [1] [] [])
    (hW1 : (⟨2, ![c, 128]⟩ : Shape).ShapeCasts ⟨2, ![c, 128]⟩)
    (hW2 : (⟨2, ![128, 128]⟩ : Shape).ShapeCasts ⟨2, ![128, 128]⟩)
    (hB : (⟨2, ![1, 128]⟩ : Shape).ShapeCasts ⟨2, ![1, 128]⟩)
    (hb : (⟨2, ![1, 128]⟩ : Shape).Broadcasts ⟨2, ![a, 128]⟩)
    (hlt : FTy.bits .bf16 < FTy.bits .f32)
    (L : FVec Ideal ⟨2, ![a, c]⟩ .bf16) (W1 : FVec Ideal ⟨2, ![c, 128]⟩ .bf16) (b1 : FVec Ideal ⟨2, ![1, 128]⟩ .f32)
    (W2 : FVec Ideal ⟨2, ![128, 128]⟩ .bf16) (b2 : FVec Ideal ⟨2, ![1, 128]⟩ .f32) (p : Fin a) (q : Fin 128) :
    unitMlp wf1 wf2 hW1 hW2 hB hb hlt L W1 b1 W2 b2 (ix2 p q)
      = mlp (rowOf L p) W1 (rowOf b1 0) W2 (rowOf b2 0) q := by
  unfold unitMlp
  refine (unitLayer_apply wf2 hW2 hB hb _ W2 b2 p q).trans ?_
  have e : ∀ k : Fin 128, truncf .bf16 (softplusSub (unitLayer wf1 hW1 hB hb L W1 b1)) hlt (ix2 p k)
      = sp ((∑ k' : Fin c, L (ix2 p k') * W1 (ix2 k' k)) + b1 (ix2 (0 : Fin 1) k)) := fun k =>
    (softplusSub_apply _ (ix2 p k)).trans (congrArg sp (unitLayer_apply wf1 hW1 hB hb L W1 b1 p k))
  simp only [e]
  rfl

section Dot
variable {a c : Nat} {φ₁ φ₂ : FTy}
  (wf : DotDims.WF ⟨2, ![a, c]⟩ ⟨2, ![c, 128]⟩ ⟨2, ![a, 128]⟩ [1] [0] [0] [1] [] [])
  (h1 : (⟨1, ![128]⟩ : Shape).BroadcastsInDim ⟨2, ![1, 128]⟩ ![1])
  (h2 : (⟨2, ![1, 128]⟩ : Shape).BroadcastsInDim ⟨2, ![a, 128]⟩ ![0, 1])

/-- One linear layer as the general dot product computes it: the product plus the length-128 bias broadcast to a row
    and then down the rows. -/
def dotLayer (L : FVec Ideal ⟨2, ![a, c]⟩ φ₁) (W : FVec Ideal ⟨2, ![c, 128]⟩ φ₂) (bias : FVec Ideal ⟨1, ![128]⟩ .f32) :
    FVec Ideal ⟨2, ![a, 128]⟩ .f32 :=
  addf (Host.dotGeneral (PlainDot.dims wf) none L W)
    (broadcastInDim ⟨2, ![a, 128]⟩ ![0, 1] h2 (broadcastInDim ⟨2, ![1, 128]⟩ ![1] h1 bias))

theorem dotLayer_apply (L : FVec Ideal ⟨2, ![a, c]⟩ φ₁) (W : FVec Ideal ⟨2, ![c, 128]⟩ φ₂)
    (bias : FVec Ideal ⟨1, ![128]⟩ .f32) (p : Fin a) (q : Fin 128) :
    dotLayer wf h1 h2 L W bias (ix2 p q) = (∑ k : Fin c, L (ix2 p k) * W (ix2 k q)) + bias (ix1 q) := by
  unfold dotLayer
  show Host.dotGeneral (PlainDot.dims wf) none L W (ix2 p q)
      + broadcastInDim ⟨2, ![a, 128]⟩ ![0, 1] h2 (broadcastInDim ⟨2, ![1, 128]⟩ ![1] h1 bias) (ix2 p q) = _
  rw [PlainDot.dotGeneral_apply, Rows.dimRow_apply]
  congr 1
  exact broadcastInDim_apply _ h1 bias (ix2 (0 : Fin 1) q) (ix1 q) fun ax => by
    match ax with
    | ⟨0, _⟩ =>
      show q.val = if (128 : Nat) = 1 then 0 else q.val
      rw [if_neg (by omega)]

end Dot

/-- The perceptron as general dot products compute it, on an `a × c` array of input rows: layer, softplus, layer. -/
def dotMlp {a c : Nat}
    (wf1 : DotDims.WF ⟨2, ![a, c]⟩ ⟨2, ![c, 128]⟩ ⟨2, ![a, 128]⟩ [1] [0] [0] [1] [] [])
    (wf2 : DotDims.WF ⟨2, ![a, 128]⟩ ⟨2, ![128, 128]⟩ ⟨2, ![a, 128]⟩ [1] [0] [0] [1] [] [])
    (h0 : (⟨0, ![]⟩ : Shape).BroadcastsInDim ⟨2, ![a, 128]⟩ ![])
    (h1 : (⟨1, ![128]⟩ : Shape).BroadcastsInDim ⟨2, ![1, 128]⟩ ![1])
    (h2 : (⟨2, ![1, 128]⟩ : Shape).BroadcastsInDim ⟨2, ![a, 128]⟩ ![0, 1])
    (L : FVec Ideal ⟨2, ![a, c]⟩ .f32) (W1 : FVec Ideal ⟨2, ![c, 128]⟩ .f32) (b1 : FVec Ideal ⟨1, ![128]⟩ .f32)
    (W2 : FVec Ideal ⟨2, ![128, 128]⟩ .f32) (b2 : FVec Ideal ⟨1, ![128]⟩ .f32) : FVec Ideal ⟨2, ![a, 128]⟩ .f32 :=
  dotLayer wf2 h1 h2 (softplusNeg h0 (dotLayer wf1 h1 h2 L W1 b1)) W2 b2

theorem dotMlp_apply {a c : Nat}
    (wf1 : DotDims.WF ⟨2, ![a, c]⟩ ⟨2, ![c, 128]⟩ ⟨2, ![a, 128]⟩ [1] [0] [0] [1] [] [])
    (wf2 : DotDims.WF ⟨2, ![a, 128]⟩ ⟨2, ![128, 128]⟩ ⟨2, ![a, 128]⟩ [1] [0] [0] [1] [] [])
    (h0 : (⟨0, ![]⟩ : Shape).BroadcastsInDim ⟨2, ![a, 128]⟩ ![])
    (h1 : (⟨1, ![128]⟩ : Shape).BroadcastsInDim ⟨2, ![1, 128]⟩ ![1])
    (h2 : (⟨2, ![1, 128]⟩ : Shape).BroadcastsInDim ⟨2, ![a, 128]⟩ ![0, 1])
    (L : FVec Ideal ⟨2, ![a, c]⟩ .f32) (W1 : FVec Ideal ⟨2, ![c, 128]⟩ .f32) (b1 : FVec Ideal ⟨1, ![128]⟩ .f32)
    (W2 : FVec Ideal ⟨2, ![128, 128]⟩ .f32) (b2 : FVec Ideal ⟨1, ![128]⟩ .f32) (p : Fin a) (q : Fin 128) :
    dotMlp wf1 wf2 h0 h1 h2 L W1 b1 W2 b2 (ix2 p q) = mlp (rowOf L p) W1 (vecOf b1) W2 (vecOf b2) q := by
  unfold dotMlp
  refine (dotLayer_apply wf2 h1 h2 _ W2 b2 p q).trans ?_
  have e : ∀ k : Fin 128, softplusNeg h0 (dotLayer wf1 h1 h2 L W1 b1) (ix2 p k)
      = sp ((∑ k' : Fin c, L (ix2 p k') * W1 (ix2 k' k)) + b1 (ix1 k)) := fun k =>
    (softplusNeg_apply h0 _ (ix2 p k)).trans (congrArg sp (dotLayer_apply wf1 h1 h2 L W1 b1 p k))
  simp only [e]
  rfl

/-! ## Perceptrons on rows laid end to end -/

section Cat
variable {a : Nat}
  (wf3 : DotDims.WF ⟨2, ![a, 384]⟩ ⟨2, ![384, 128]⟩ ⟨2, ![a, 128]⟩ [1] [0] [0] [1] [] [])
  (wf2' : DotDims.WF ⟨2, ![a, 256]⟩ ⟨2, ![256, 128]⟩ ⟨2, ![a, 128]⟩ [1] [0] [0] [1] [] [])
  (wf2 : DotDims.WF ⟨2, ![a, 128]⟩ ⟨2, ![128, 128]⟩ ⟨2, ![a, 128]⟩ [1] [0] [0] [1] [] [])
  (hW3 : (⟨2, ![384, 128]⟩ : Shape).ShapeCasts ⟨2, ![384, 128]⟩)
  (hW2' : (⟨2, ![256, 128]⟩ : Shape).ShapeCasts ⟨2, ![256, 128]⟩)
  (hW2 : (⟨2, ![128, 128]⟩ : Shape).ShapeCasts ⟨2, ![128, 128]⟩)
  (hB : (⟨2, ![1, 128]⟩ : Shape).ShapeCasts ⟨2, ![1, 128]⟩)
  (hb : (⟨2, ![1, 128]⟩ : Shape).Broadcasts ⟨2, ![a, 128]⟩)
  (hlt : FTy.bits .bf16 < FTy.bits .f32)
  (h0 : (⟨0, ![]⟩ : Shape).BroadcastsInDim ⟨2, ![a, 128]⟩ ![])
  (h1 : (⟨1, ![128]⟩ : Shape).BroadcastsInDim ⟨2, ![1, 128]⟩ ![1])
  (h2 : (⟨2, ![1, 128]⟩ : Shape).BroadcastsInDim ⟨2, ![a, 128]⟩ ![0, 1])
  (hc3 : Shape.Concatenates [(⟨2, ![a, 128]⟩ : Shape), ⟨2, ![a, 128]⟩, ⟨2, ![a, 128]⟩] ⟨2, ![a, 384]⟩ (1 : Fin 2))
  (hc2 : Shape.Concatenates [(⟨2, ![a, 128]⟩ : Shape), ⟨2, ![a, 128]⟩] ⟨2, ![a, 256]⟩ (1 : Fin 2))

theorem unitMlp_cat3 (A B C : FVec Ideal ⟨2, ![a, 128]⟩ .bf16) (W1 : FVec Ideal ⟨2, ![384, 128]⟩ .bf16)
    (b1 : FVec Ideal ⟨2, ![1, 128]⟩ .f32) (W2 : FVec Ideal ⟨2, ![128, 128]⟩ .bf16) (b2 : FVec Ideal ⟨2, ![1, 128]⟩ .f32)
    (p : Fin a) (q : Fin 128) :
    unitMlp wf3 wf2 hW3 hW2 hB hb hlt
        (concatenate ⟨2, ![a, 384]⟩ (1 : Fin 2) [⟨⟨2, ![a, 128]⟩, A⟩, ⟨⟨2, ![a, 128]⟩, B⟩, ⟨⟨2, ![a, 128]⟩, C⟩] hc3)
        W1 b1 W2 b2 (ix2 p q)
      = mlp (cat3 (rowOf A p) (rowOf B p) (rowOf C p)) W1 (rowOf b1 0) W2 (rowOf b2 0) q :=
  (unitMlp_apply wf3 wf2 hW3 hW2 hB hb hlt _ W1 b1 W2 b2 p q).trans
    (congrArg (fun r => mlp r W1 (rowOf b1 0) W2 (rowOf b2 0) q) (funext fun k => concat3_row A B C hc3 p k))

theorem unitMlp_cat2 (A B : FVec Ideal ⟨2, ![a, 128]⟩ .bf16) (W1 : FVec Ideal ⟨2, ![256, 128]⟩ .bf16)
    (b1 : FVec Ideal ⟨2, ![1, 128]⟩ .f32) (W2 : FVec Ideal ⟨2, ![128, 128]⟩ .bf16) (b2 : FVec Ideal ⟨2, ![1, 128]⟩ .f32)
    (p : Fin a) (q : Fin 128) :
    unitMlp wf2' wf2 hW2' hW2 hB hb hlt
        (concatenate ⟨2, ![a, 256]⟩ (1 : Fin 2) [⟨⟨2, ![a, 128]⟩, A⟩, ⟨⟨2, ![a, 128]⟩, B⟩] hc2)
        W1 b1 W2 b2 (ix2 p q)
      = mlp (cat2 (rowOf A p) (rowOf B p)) W1 (rowOf b1 0) W2 (rowOf b2 0) q :=
  (unitMlp_apply wf2' wf2 hW2' hW2 hB hb hlt _ W1 b1 W2 b2 p q).trans
    (congrArg (fun r => mlp r W1 (rowOf b1 0) W2 (rowOf b2 0) q) (funext fun k => concat2_row A B hc2 p k))

theorem dotMlp_cat3 (A B C : FVec Ideal ⟨2, ![a, 128]⟩ .f32) (W1 : FVec Ideal ⟨2, ![384, 128]⟩ .f32)
    (b1 : FVec Ideal ⟨1, ![128]⟩ .f32) (W2 : FVec Ideal ⟨2, ![128, 128]⟩ .f32) (b2 : FVec Ideal ⟨1, ![128]⟩ .f32)
    (p : Fin a) (q : Fin 128) :
    dotMlp wf3 wf2 h0 h1 h2
        (concatenate ⟨2, ![a, 384]⟩ (1 : Fin 2) [⟨⟨2, ![a, 128]⟩, A⟩, ⟨⟨2, ![a, 128]⟩, B⟩, ⟨⟨2, ![a, 128]⟩, C⟩] hc3)
        W1 b1 W2 b2 (ix2 p q)
      = mlp (cat3 (rowOf A p) (rowOf B p) (rowOf C p)) W1 (vecOf b1) W2 (vecOf b2) q :=
  (dotMlp_apply wf3 wf2 h0 h1 h2 _ W1 b1 W2 b2 p q).trans
    (congrArg (fun r => mlp r W1 (vecOf b1) W2 (vecOf b2) q) (funext fun k => concat3_row A B C hc3 p k))

theorem dotMlp_cat2 (A B : FVec Ideal ⟨2, ![a, 128]⟩ .f32) (W1 : FVec Ideal ⟨2, ![256, 128]⟩ .f32)
    (b1 : FVec Ideal ⟨1, ![128]⟩ .f32) (W2 : FVec Ideal ⟨2, ![128, 128]⟩ .f32) (b2 : FVec Ideal ⟨1, ![128]⟩ .f32)
    (p : Fin a) (q : Fin 128) :
    dotMlp wf2' wf2 h0 h1 h2
        (concatenate ⟨2, ![a, 256]⟩ (1 : Fin 2) [⟨⟨2, ![a, 128]⟩, A⟩, ⟨⟨2, ![a, 128]⟩, B⟩] hc2)
        W1 b1 W2 b2 (ix2 p q)
      = mlp (cat2 (rowOf A p) (rowOf B p)) W1 (vecOf b1) W2 (vecOf b2) q :=
  (dotMlp_apply wf2' wf2 h0 h1 h2 _ W1 b1 W2 b2 p q).trans
    (congrArg (fun r => mlp r W1 (vecOf b1) W2 (vecOf b2) q) (funext fun k => concat2_row A B hc2 p k))

end Cat

/-! ## The two result arrays of one step, row by row -/

/-- The updated edge features: row `e` is the first perceptron on rows `e` of the three inputs laid end to end. -/
def edgeArr {a : Nat} (XR XC EA : (⟨2, ![a, 128]⟩ : Shape).Idx → EReal) (W1 : (⟨2, ![384, 128]⟩ : Shape).Idx → EReal)
    (b1 : Fin 128 → EReal) (W2 : (⟨2, ![128, 128]⟩ : Shape).Idx → EReal) (b2 : Fin 128 → EReal) :
    (⟨2, ![a, 128]⟩ : Shape).Idx → EReal :=
  fun i => mlp (cat3 (rowOf XR ⟨(i 0).val, idx2_lt0 i⟩) (rowOf XC ⟨(i 0).val, idx2_lt0 i⟩) (rowOf EA ⟨(i 0).val, idx2_lt0 i⟩))
    W1 b1 W2 b2 ⟨(i 1).val, idx2_lt1 i⟩

/-- The messages: row `e` is the second perceptron on row `e` of the first input and of the updated edge features. -/
def msgArr {a : Nat} (XR EN : (⟨2, ![a, 128]⟩ : Shape).Idx → EReal) (V1 : (⟨2, ![256, 128]⟩ : Shape).Idx → EReal)
    (c1 : Fin 128 → EReal) (V2 : (⟨2, ![128, 128]⟩ : Shape).Idx → EReal) (c2 : Fin 128 → EReal) :
    (⟨2, ![a, 128]⟩ : Shape).Idx → EReal :=
  fun i => mlp (cat2 (rowOf XR ⟨(i 0).val, idx2_lt0 i⟩) (rowOf EN ⟨(i 0).val, idx2_lt0 i⟩))
    V1 c1 V2 c2 ⟨(i 1).val, idx2_lt1 i⟩

end Cert.EdgeMlp

end
-- ==== Proof.GraphStep.lean ====
/-
  One message-passing step on a graph of 10000 nodes and 640000 edges, as a function of its inputs.

  With node features `x : 10000 × 128`, an edge list `ei : 2 × 640000` (row 0 the source of each edge, row 1 its
  destination; a negative node number counts from the end), edge features `ea : 640000 × 128` and the weights of two
  perceptrons:

    * `edges`     — row `e` is the first perceptron on (x[src e], x[dst e], ea[e]) laid end to end;
    * `messages`  — row `e` is the second perceptron on (x[src e], edges[e]) laid end to end;
    * `nodes`     — row `n` is the sum of the messages of the edges whose destination is `n`.

  The side conditions of the layout operations are facts about literal extents and are decided here, so the three
  functions depend on the arrays only.
-/
import proofs.«144321_j74637941670346_2_alg».proof.Proof.EdgeMlp

noncomputable section

namespace Cert.GraphStep

open Idealize.ShloMosaic Idealize.ShloMosaic.ValueIdx Cert.EdgeMlp

abbrev SX : Shape := ⟨2, ![10000, 128]⟩
abbrev SI : Shape := ⟨2, ![2, 640000]⟩
abbrev SI1 : Shape := ⟨2, ![1, 640000]⟩
abbrev SV : Shape := ⟨1, ![640000]⟩
abbrev SC : Shape := ⟨2, ![640000, 1]⟩
abbrev SE : Shape := ⟨2, ![640000, 128]⟩
abbrev S0 : Shape := ⟨0, ![]⟩

theorem hs0 : SI.Slices ![0, 0] SI1 := by decide
theorem hs1 : SI.Slices ![1, 0] SI1 := by decide
theorem hc : SI1.ShapeCasts SV := by decide
theorem h0 : S0.BroadcastsInDim SV (![] : Fin 0 → Fin SV.rank) := by decide
theorem h1 : SV.BroadcastsInDim SC (![0] : Fin 1 → Fin SC.rank) := by decide
theorem hz : S0.BroadcastsInDim SX (![] : Fin 0 → Fin SX.rank) := by decide
theorem gwf : GatherDims.WF SX SC SE [1] [0] [] [0] [] 1 ![1, 128] := by decide
theorem swf : ScatterDims.WF SX SC SE [1] [0] [0] 1 := by decide

/-- The dimension numbers of a row lookup `x[idx]`. -/
def rowLookup : GatherDims SX SC SE where
  offsetDims := [1]
  collapsedSliceDims := [0]
  operandBatchingDims := []
  startIndicesBatchingDims := []
  startIndexMap := [0]
  indexVectorDim := 1
  sliceSizes := ![1, 128]
  wf := gwf

/-- The dimension numbers of a row-wise accumulation `out[idx] += rows`. -/
def rowAccumulate : ScatterDims SX SC SE where
  updateWindowDims := [1]
  insertedWindowDims := [0]
  scatterDimsToOperandDims := [0]
  indexVectorDim := 1
  wf := swf

/-- The sources of the edges: row 0 of the edge list. -/
def src (ei : IVec SI 32) : IVec SV 32 := shapeCast SV (extractStridedSlice SI1 ![0, 0] ei hs0) hc

/-- The destinations of the edges: row 1 of the edge list. -/
def dst (ei : IVec SI 32) : IVec SV 32 := shapeCast SV (extractStridedSlice SI1 ![1, 0] ei hs1) hc

/-- Node numbers as a column of lookup positions, a negative one counted from the end. -/
def wrap (r : IVec SV 32) : IVec SC 32 :=
  broadcastInDim SC ![0] h1
    (select (cmpi .slt r (broadcastInDim SV ![] h0 (constantI S0 32 0#32)))
      (addi r (broadcastInDim SV ![] h0 (constantI S0 32 10000#32))) r)

/-- The node features at the given end of every edge. -/
def rowsAt (x : SX.Idx → EReal) (r : IVec SV 32) : SE.Idx → EReal := Host.gather rowLookup x (wrap r)

/-- The updated edge features. -/
def edges (x : SX.Idx → EReal) (ei : IVec SI 32) (ea : SE.Idx → EReal)
    (W1 : (⟨2, ![384, 128]⟩ : Shape).Idx → EReal) (b1 : (⟨1, ![128]⟩ : Shape).Idx → EReal)
    (W2 : (⟨2, ![128, 128]⟩ : Shape).Idx → EReal) (b2 : (⟨1, ![128]⟩ : Shape).Idx → EReal) : SE.Idx → EReal :=
  edgeArr (a := 640000) (rowsAt x (src ei)) (rowsAt x (dst ei)) ea W1 (vecOf b1) W2 (vecOf b2)

/-- The messages along the edges. -/
def messages (x : SX.Idx → EReal) (ei : IVec SI 32) (en : SE.Idx → EReal)
    (V1 : (⟨2, ![256, 128]⟩ : Shape).Idx → EReal) (c1 : (⟨1, ![128]⟩ : Shape).Idx → EReal)
    (V2 : (⟨2, ![128, 128]⟩ : Shape).Idx → EReal) (c2 : (⟨1, ![128]⟩ : Shape).Idx → EReal) : SE.Idx → EReal :=
  msgArr (a := 640000) (rowsAt x (src ei)) en V1 (vecOf c1) V2 (vecOf c2)

/-- Rows summed, from zero, into the nodes a list of node numbers names. -/
def nodesAt (d : IVec SV 32) (msg : SE.Idx → EReal) : SX.Idx → EReal :=
  Host.scatterAdd (F := Ideal) (φ := .f32) rowAccumulate (broadcastInDim SX ![] hz (constant S0 .f32 0x00000000#32))
    (broadcastInDim SC ![0] h1 d) msg

/-- The messages summed into their destination nodes, from zero. -/
def nodes (ei : IVec SI 32) (msg : SE.Idx → EReal) : SX.Idx → EReal := nodesAt (dst ei) msg

end Cert.GraphStep

end
-- ==== Proof.KernelEdge.lean ====
/-
  What the kernel's region leaves in its two output arrays, and the node sums the host computes from the second.

  The region runs the body at 125 points; point `t` reads rows `5120·t … 5120·t + 5119` of three row arrays (the node
  features at each edge's source and destination, and the edge features) and the whole of four weight matrices and
  four bias rows, and writes the same rows of two outputs. Row `p` of what the body stores is a two-layer perceptron
  of row `p` of its inputs only, so block `t` of each output is block `t` of one whole-array function: the step's
  updated edge features and its messages. The blocks tile the outputs. After the region the host sums the messages
  into their destination nodes.
-/
import proofs.«144321_j74637941670346_2_alg».proof.Proof.Gen.KernelIdeal.Frame
import Idealize.ShloMosaic.Lib.StableHlo.Run
import proofs.«144321_j74637941670346_2_alg».proof.Proof.GraphStep

set_option maxRecDepth 16384

noncomputable section

namespace Cert.KernelIdeal.EdgeValue

open Idealize.ShloMosaic Idealize.ShloMosaic.TcCoe Idealize.ShloMosaic.ValueIdx Idealize.SL.Sem
open Cert.KernelIdeal Cert.KernelIdeal.Gen Cert.EdgeMlp
open Idealize.ShloMosaic.Pipeline (Dat)
open Idealize.ShloMosaic.StableHlo

/-! ## The body's two stored values -/

theorem pay3_eq (x0 x1 x2 : Vec Ideal S5120x128 .bf16) (x3 : Vec Ideal S384x128 .bf16) (x4 : Vec Ideal S1x128 .f32)
    (x5 : Vec Ideal S128x128 .bf16) (x6 : Vec Ideal S1x128 .f32) :
    k0_pay3 (F := Ideal) x0 x1 x2 x3 x4 x5 x6
      = unitMlp dot_S5120x384_S384x128_S5120x128_1_0_0_1_n_n_wf dot_S5120x128_S128x128_S5120x128_1_0_0_1_n_n_wf
          shapeCasts_S384x128_S384x128 shapeCasts_S128x128_S128x128 shapeCasts_S1x128_S1x128 broadcasts_S1x128_S5120x128
          bitsLt_bf16_f32
          (concatenate S5120x384 1 [⟨S5120x128, shapeCast S5120x128 x0 shapeCasts_S5120x128_S5120x128⟩,
            ⟨S5120x128, shapeCast S5120x128 x1 shapeCasts_S5120x128_S5120x128⟩,
            ⟨S5120x128, shapeCast S5120x128 x2 shapeCasts_S5120x128_S5120x128⟩]
            concatenates_S5120x128_S5120x128_S5120x128_S5120x384_d1)
          x3 x4 x5 x6 := rfl

theorem pay1_eq (v1 v37 : FVec Ideal S5120x128 .bf16) (x7 : Vec Ideal S256x128 .bf16) (x8 : Vec Ideal S1x128 .f32)
    (x9 : Vec Ideal S128x128 .bf16) (x10 : Vec Ideal S1x128 .f32) :
    k0_pay1 (F := Ideal) v1 v37 x7 x8 x9 x10
      = unitMlp dot_S5120x256_S256x128_S5120x128_1_0_0_1_n_n_wf dot_S5120x128_S128x128_S5120x128_1_0_0_1_n_n_wf
          shapeCasts_S256x128_S256x128 shapeCasts_S128x128_S128x128 shapeCasts_S1x128_S1x128 broadcasts_S1x128_S5120x128
          bitsLt_bf16_f32
          (concatenate S5120x256 1 [⟨S5120x128, v1⟩, ⟨S5120x128, v37⟩] concatenates_S5120x128_S5120x128_S5120x256_d1)
          x7 x8 x9 x10 := rfl

theorem pay3_at (x0 x1 x2 : Vec Ideal S5120x128 .bf16) (x3 : Vec Ideal S384x128 .bf16) (x4 : Vec Ideal S1x128 .f32)
    (x5 : Vec Ideal S128x128 .bf16) (x6 : Vec Ideal S1x128 .f32) (p : Fin 5120) (q : Fin 128) :
    k0_pay3 (F := Ideal) x0 x1 x2 x3 x4 x5 x6 (ix2 p q)
      = mlp (cat3 (rowOf x0 p) (rowOf x1 p) (rowOf x2 p)) x3 (rowOf x4 0) x5 (rowOf x6 0) q := by
  rw [pay3_eq, shapeCast_self, shapeCast_self, shapeCast_self]
  exact unitMlp_cat3 _ _ _ _ _ _ _ _ x0 x1 x2 x3 x4 x5 x6 p q

theorem pay1_at (x0 x1 x2 : Vec Ideal S5120x128 .bf16) (x3 : Vec Ideal S384x128 .bf16) (x4 : Vec Ideal S1x128 .f32)
    (x5 : Vec Ideal S128x128 .bf16) (x6 : Vec Ideal S1x128 .f32) (x7 : Vec Ideal S256x128 .bf16) (x8 : Vec Ideal S1x128 .f32)
    (x9 : Vec Ideal S128x128 .bf16) (x10 : Vec Ideal S1x128 .f32) (p : Fin 5120) (q : Fin 128) :
    k0_pay1 (F := Ideal) (k0_pay2 x0) (k0_pay4 x0 x1 x2 x3 x4 x5 x6) x7 x8 x9 x10 (ix2 p q)
      = mlp (cat2 (rowOf x0 p) (fun j => mlp (cat3 (rowOf x0 p) (rowOf x1 p) (rowOf x2 p)) x3 (rowOf x4 0) x5 (rowOf x6 0) j))
          x7 (rowOf x8 0) x9 (rowOf x10 0) q := by
  rw [pay1_eq]
  refine (unitMlp_cat2 _ _ _ _ _ _ _ _ (k0_pay2 x0) (k0_pay4 x0 x1 x2 x3 x4 x5 x6) x7 x8 x9 x10 p q).trans ?_
  have e0 : rowOf (k0_pay2 (F := Ideal) x0) p = rowOf x0 p := by
    unfold k0_pay2; rw [shapeCast_self]
  have e1 : rowOf (k0_pay4 (F := Ideal) x0 x1 x2 x3 x4 x5 x6) p
      = fun j => mlp (cat3 (rowOf x0 p) (rowOf x1 p) (rowOf x2 p)) x3 (rowOf x4 0) x5 (rowOf x6 0) j :=
    funext fun j => (show k0_pay4 (F := Ideal) x0 x1 x2 x3 x4 x5 x6 (ix2 p j) = k0_pay3 x0 x1 x2 x3 x4 x5 x6 (ix2 p j) from rfl).trans
      (pay3_at x0 x1 x2 x3 x4 x5 x6 p j)
  rw [e0, e1]

/-! ## The blocks the body reads -/

variable (m : (ℓ : Loc nD τ sig) → Buf (Elt Ideal) ℓ)

theorem hz : (![0, 0] : Fin 2 → Nat) = fun _ => 0 := funext fun a => by fin_cases a <;> rfl

/-- The printed index maps, decided over the grid: the five row windows sit at block row `t`, the eight weight and
    bias windows at block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem t_lt (t : Fin cfg0.N) : t.val < 125 := lt_of_lt_of_eq t.isLt N_0

/-- Entry `y` of row window 0's block at point `t` is the array's entry `5120·t` rows further down. -/
theorem blk0_at (c : Dev nD) (t : Fin cfg0.N) (y : S5120x128.Idx) (i : S640000x128.Idx)
    (h0 : (i 0).val = 5120 * t.val + (y 0).val) (h1 : (i 1).val = (y 1).val) :
    iblk m c 0 t y = V m c main_v12 i := by
  unfold iblk
  show V m c main_v12 (((cfg0.win 0).blk t).view.emb y) = V m c main_v12 i
  refine congrArg (V m c main_v12) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_0.index t (0 : Fin 2) * 5120 + 1 * (y 0).val = (i 0).val; omega
  | ⟨1, _⟩ => show win0_0.index t (1 : Fin 2) * 128 + 1 * (y 1).val = (i 1).val; omega

/-- Entry `y` of row window 1's block at point `t` is the array's entry `5120·t` rows further down. -/
theorem blk1_at (c : Dev nD) (t : Fin cfg0.N) (y : S5120x128.Idx) (i : S640000x128.Idx)
    (h0 : (i 0).val = 5120 * t.val + (y 0).val) (h1 : (i 1).val = (y 1).val) :
    iblk m c 1 t y = V m c main_v19 i := by
  unfold iblk
  show V m c main_v19 (((cfg0.win 1).blk t).view.emb y) = V m c main_v19 i
  refine congrArg (V m c main_v19) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_1.index t (0 : Fin 2) * 5120 + 1 * (y 0).val = (i 0).val; omega
  | ⟨1, _⟩ => show win0_1.index t (1 : Fin 2) * 128 + 1 * (y 1).val = (i 1).val; omega

/-- Entry `y` of row window 2's block at point `t` is the array's entry `5120·t` rows further down. -/
theorem blk2_at (c : Dev nD) (t : Fin cfg0.N) (y : S5120x128.Idx) (i : S640000x128.Idx)
    (h0 : (i 0).val = 5120 * t.val + (y 0).val) (h1 : (i 1).val = (y 1).val) :
    iblk m c 2 t y = V m c main_v5 i := by
  unfold iblk
  show V m c main_v5 (((cfg0.win 2).blk t).view.emb y) = V m c main_v5 i
  refine congrArg (V m c main_v5) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_2.index t (0 : Fin 2) * 5120 + 1 * (y 0).val = (i 0).val; omega
  | ⟨1, _⟩ => show win0_2.index t (1 : Fin 2) * 128 + 1 * (y 1).val = (i 1).val; omega

/-- Window 3's one block is its whole array. -/
theorem blk3_eq (c : Dev nD) (t : Fin cfg0.N) : iblk m c 3 t = V m c main_v20 := by
  unfold iblk
  funext y
  show V m c main_v20 (((cfg0.win 3).blk t).view.emb y) = V m c main_v20 y
  refine congrArg (V m c main_v20) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_3.index t (0 : Fin 2) * 384 + 1 * (y 0).val = (y 0).val; omega
  | ⟨1, _⟩ => show win0_3.index t (1 : Fin 2) * 128 + 1 * (y 1).val = (y 1).val; omega

/-- Window 4's one block is its whole array. -/
theorem blk4_eq (c : Dev nD) (t : Fin cfg0.N) : iblk m c 4 t = V m c main_v24 := by
  unfold iblk
  funext y
  show V m c main_v24 (((cfg0.win 4).blk t).view.emb y) = V m c main_v24 y
  refine congrArg (V m c main_v24) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's one block is its whole array. -/
theorem blk5_eq (c : Dev nD) (t : Fin cfg0.N) : iblk m c 5 t = V m c main_v21 := by
  unfold iblk
  funext y
  show V m c main_v21 (((cfg0.win 5).blk t).view.emb y) = V m c main_v21 y
  refine congrArg (V m c main_v21) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's one block is its whole array. -/
theorem blk6_eq (c : Dev nD) (t : Fin cfg0.N) : iblk m c 6 t = V m c main_v25 := by
  unfold iblk
  funext y
  show V m c main_v25 (((cfg0.win 6).blk t).view.emb y) = V m c main_v25 y
  refine congrArg (V m c main_v25) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's one block is its whole array. -/
theorem blk7_eq (c : Dev nD) (t : Fin cfg0.N) : iblk m c 7 t = V m c main_v22 := by
  unfold iblk
  funext y
  show V m c main_v22 (((cfg0.win 7).blk t).view.emb y) = V m c main_v22 y
  refine congrArg (V m c main_v22) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_7.index t (0 : Fin 2) * 256 + 1 * (y 0).val = (y 0).val; omega
  | ⟨1, _⟩ => show win0_7.index t (1 : Fin 2) * 128 + 1 * (y 1).val = (y 1).val; omega

/-- Window 8's one block is its whole array. -/
theorem blk8_eq (c : Dev nD) (t : Fin cfg0.N) : iblk m c 8 t = V m c main_v26 := by
  unfold iblk
  funext y
  show V m c main_v26 (((cfg0.win 8).blk t).view.emb y) = V m c main_v26 y
  refine congrArg (V m c main_v26) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's one block is its whole array. -/
theorem blk9_eq (c : Dev nD) (t : Fin cfg0.N) : iblk m c 9 t = V m c main_v23 := by
  unfold iblk
  funext y
  show V m c main_v23 (((cfg0.win 9).blk t).view.emb y) = V m c main_v23 y
  refine congrArg (V m c main_v23) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's one block is its whole array. -/
theorem blk10_eq (c : Dev nD) (t : Fin cfg0.N) : iblk m c 10 t = V m c main_v27 := by
  unfold iblk
  funext y
  show V m c main_v27 (((cfg0.win 10).blk t).view.emb y) = V m c main_v27 y
  refine congrArg (V m c main_v27) (funext fun a => Fin.ext ?_)
  obtain ⟨f0, f1, f2, f3, f4, f5, f6, f7, f8, f9, f10, f11, f12, f13, f14, f15, f16, f17, f18, f19, f20, f21, f22, f23, f24, f25⟩ := idx_facts t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## What the region leaves in its two output arrays -/

/-- The updated edge features, of the arrays as the region finds them. -/
def edgeK (c : Dev nD) : S640000x128.Idx → EReal :=
  edgeArr (a := 640000) (V m c main_v12) (V m c main_v19) (V m c main_v5) (V m c main_v20)
    (rowOf (a := 1) (b := 128) (V m c main_v24) 0) (V m c main_v21) (rowOf (a := 1) (b := 128) (V m c main_v25) 0)

/-- The messages, of the arrays as the region finds them. -/
def msgK (c : Dev nD) : S640000x128.Idx → EReal :=
  msgArr (a := 640000) (V m c main_v12) (edgeK m c) (V m c main_v22)
    (rowOf (a := 1) (b := 128) (V m c main_v26) 0) (V m c main_v23) (rowOf (a := 1) (b := 128) (V m c main_v27) 0)

theorem row_lt (t : Fin cfg0.N) (p : Fin 5120) : 5120 * t.val + p.val < 640000 := by
  have := t_lt t; have := p.isLt; omega

/-- Row `p` of output block `t` is row `5120·t + p` of the array. -/
theorem emb11 (t : Fin cfg0.N) (p : Fin 5120) (q : Fin 128) :
    ((cfg0.win 11).blk t).view.emb (ix2 p q) = ix2 (⟨5120 * t.val + p.val, row_lt t p⟩ : Fin 640000) q := by
  funext a; apply Fin.ext
  obtain ⟨f0, f1, f2, f3, f4, f5, f6, f7, f8, f9, f10, f11, f12, f13, f14, f15, f16, f17, f18, f19, f20, f21, f22, f23, f24, f25⟩ := idx_facts t
  match a with
  | ⟨0, _⟩ => show win0_11.index t (0 : Fin 2) * 5120 + 1 * p.val = 5120 * t.val + p.val; omega
  | ⟨1, _⟩ => show win0_11.index t (1 : Fin 2) * 128 + 1 * q.val = q.val; omega

theorem emb12 (t : Fin cfg0.N) (p : Fin 5120) (q : Fin 128) :
    ((cfg0.win 12).blk t).view.emb (ix2 p q) = ix2 (⟨5120 * t.val + p.val, row_lt t p⟩ : Fin 640000) q := by
  funext a; apply Fin.ext
  obtain ⟨f0, f1, f2, f3, f4, f5, f6, f7, f8, f9, f10, f11, f12, f13, f14, f15, f16, f17, f18, f19, f20, f21, f22, f23, f24, f25⟩ := idx_facts t
  match a with
  | ⟨0, _⟩ => show win0_12.index t (0 : Fin 2) * 5120 + 1 * p.val = 5120 * t.val + p.val; omega
  | ⟨1, _⟩ => show win0_12.index t (1 : Fin 2) * 128 + 1 * q.val = q.val; omega

/-- The first perceptron on row `p` of the blocks at point `t` is the updated edge features at row `5120·t + p`. -/
theorem edge_block (c : Dev nD) (t : Fin cfg0.N) (p : Fin 5120) (j : Fin 128) :
    mlp (cat3 (rowOf (a := 5120) (b := 128) (iblk m c 0 t) p) (rowOf (a := 5120) (b := 128) (iblk m c 1 t) p)
        (rowOf (a := 5120) (b := 128) (iblk m c 2 t) p))
      (iblk m c 3 t) (rowOf (a := 1) (b := 128) (iblk m c 4 t) 0) (iblk m c 5 t) (rowOf (a := 1) (b := 128) (iblk m c 6 t) 0) j
      = edgeK m c (ix2 (⟨5120 * t.val + p.val, row_lt t p⟩ : Fin 640000) j) := by
  unfold edgeK edgeArr
  refine mlp_congr (cat3_congr ?_ ?_ ?_) (blk3_eq m c t) ?_ (blk5_eq m c t) ?_ rfl
  · exact funext fun k => blk0_at m c t (ix2 p k) (ix2 (⟨5120 * t.val + p.val, row_lt t p⟩ : Fin 640000) k) rfl rfl
  · exact funext fun k => blk1_at m c t (ix2 p k) (ix2 (⟨5120 * t.val + p.val, row_lt t p⟩ : Fin 640000) k) rfl rfl
  · exact funext fun k => blk2_at m c t (ix2 p k) (ix2 (⟨5120 * t.val + p.val, row_lt t p⟩ : Fin 640000) k) rfl rfl
  · exact funext fun k => congrFun (blk4_eq m c t) (ix2 (0 : Fin 1) k)
  · exact funext fun k => congrFun (blk6_eq m c t) (ix2 (0 : Fin 1) k)

/-- WHAT POINT `t` WRITES BACK to the first output is block `t` of the updated edge features. -/
theorem flushed11_eq (c : Dev nD) (t : Fin cfg0.N) :
    (dats m 0 c).flushed 11 t = ((cfg0.win 11).blk t).view.read (Elt Ideal) (edgeK m c) := by
  show (cfg0.win 11).cut (grid0.coords t) ((dats m 0 c).after 11 t) = _
  rw [after0_11]
  unfold out0_11
  rw [View.canon_unit_zero hz]
  simp only [View.ld_unit_zero (S := S5120x128) hz, View.ld_unit_zero (S := S384x128) hz,
    View.ld_unit_zero (S := S1x128) hz, View.ld_unit_zero (S := S128x128) hz]
  funext j
  obtain ⟨p, q, rfl⟩ : ∃ (p : Fin 5120) (q : Fin 128), j = ix2 p q := ⟨j 0, j 1, eq_ix2 j⟩
  show k0_pay3 (iblk m c 0 t) (iblk m c 1 t) (iblk m c 2 t) (iblk m c 3 t) (iblk m c 4 t) (iblk m c 5 t) (iblk m c 6 t) (ix2 p q)
      = edgeK m c (((cfg0.win 11).blk t).view.emb (ix2 p q))
  rw [emb11]
  exact (pay3_at _ _ _ _ _ _ _ p q).trans (edge_block m c t p q)

/-- WHAT POINT `t` WRITES BACK to the second output is block `t` of the messages. -/
theorem flushed12_eq (c : Dev nD) (t : Fin cfg0.N) :
    (dats m 0 c).flushed 12 t = ((cfg0.win 12).blk t).view.read (Elt Ideal) (msgK m c) := by
  show (cfg0.win 12).cut (grid0.coords t) ((dats m 0 c).after 12 t) = _
  rw [after0_12]
  unfold out0_12
  rw [View.canon_unit_zero hz]
  simp only [View.ld_unit_zero (S := S5120x128) hz, View.ld_unit_zero (S := S384x128) hz,
    View.ld_unit_zero (S := S1x128) hz, View.ld_unit_zero (S := S128x128) hz, View.ld_unit_zero (S := S256x128) hz]
  funext j
  obtain ⟨p, q, rfl⟩ : ∃ (p : Fin 5120) (q : Fin 128), j = ix2 p q := ⟨j 0, j 1, eq_ix2 j⟩
  show k0_pay1 (k0_pay2 (iblk m c 0 t)) (k0_pay4 (iblk m c 0 t) (iblk m c 1 t) (iblk m c 2 t) (iblk m c 3 t) (iblk m c 4 t) (iblk m c 5 t) (iblk m c 6 t))
        (iblk m c 7 t) (iblk m c 8 t) (iblk m c 9 t) (iblk m c 10 t) (ix2 p q)
      = msgK m c (((cfg0.win 12).blk t).view.emb (ix2 p q))
  rw [emb12]
  refine (pay1_at _ _ _ _ _ _ _ _ _ _ _ p q).trans ?_
  unfold msgK msgArr
  refine mlp_congr (cat2_congr ?_ ?_) (blk7_eq m c t) ?_ (blk9_eq m c t) ?_ rfl
  · exact funext fun k => blk0_at m c t (ix2 p k) (ix2 (⟨5120 * t.val + p.val, row_lt t p⟩ : Fin 640000) k) rfl rfl
  · exact funext fun k => edge_block m c t p k
  · exact funext fun k => congrFun (blk8_eq m c t) (ix2 (0 : Fin 1) k)
  · exact funext fun k => congrFun (blk10_eq m c t) (ix2 (0 : Fin 1) k)

/-! ## The blocks tile the arrays -/

theorem mem_blk11 (t : Fin cfg0.N) (i : S640000x128.Idx) :
    i ∈ ((cfg0.win 11).blk t).view.set ↔ ∀ a : Fin 2, win0_11.index t a * S5120x128.size a ≤ (i a).val ∧ (i a).val < win0_11.index t a * S5120x128.size a + S5120x128.size a := by
  show i ∈ ((View.whole main_v28_0).slice (win0_11.rect t)).set ↔ _
  rw [View.set_slice_whole, Rect.mem_set_unit]
  exact Iff.rfl

theorem mem_blk12 (t : Fin cfg0.N) (i : S640000x128.Idx) :
    i ∈ ((cfg0.win 12).blk t).view.set ↔ ∀ a : Fin 2, win0_12.index t a * S5120x128.size a ≤ (i a).val ∧ (i a).val < win0_12.index t a * S5120x128.size a + S5120x128.size a := by
  show i ∈ ((View.whole main_v28_1).slice (win0_12.rect t)).set ↔ _
  rw [View.set_slice_whole, Rect.mem_set_unit]
  exact Iff.rfl

/-- The point whose block holds row `r` is `r / 5120`. -/
def pointOf (i : S640000x128.Idx) : Fin cfg0.N :=
  ⟨(i 0).val / 5120, by have h : (i 0).val < 640000 := (i 0).isLt; show _ < grid0.N; rw [N_0]; omega⟩

theorem cover11 (i : S640000x128.Idx) :
    ∃ t : Fin cfg0.N, (cfg0.win 11).flush t = true ∧ i ∈ ((cfg0.win 11).blk t).view.set := by
  refine ⟨pointOf i, flush0_11 _, ?_⟩
  rw [mem_blk11]
  have hi0 : (i 0).val < 640000 := (i 0).isLt
  have hi1 : (i 1).val < 128 := (i 1).isLt
  have ht : (pointOf i).val = (i 0).val / 5120 := rfl
  obtain ⟨f0, f1, f2, f3, f4, f5, f6, f7, f8, f9, f10, f11, f12, f13, f14, f15, f16, f17, f18, f19, f20, f21, f22, f23, f24, f25⟩ := idx_facts (pointOf i)
  intro a
  match a with
  | ⟨0, _⟩ => show win0_11.index (pointOf i) (0 : Fin 2) * 5120 ≤ (i 0).val ∧ (i 0).val < win0_11.index (pointOf i) (0 : Fin 2) * 5120 + 5120; omega
  | ⟨1, _⟩ => show win0_11.index (pointOf i) (1 : Fin 2) * 128 ≤ (i 1).val ∧ (i 1).val < win0_11.index (pointOf i) (1 : Fin 2) * 128 + 128; omega

theorem cover12 (i : S640000x128.Idx) :
    ∃ t : Fin cfg0.N, (cfg0.win 12).flush t = true ∧ i ∈ ((cfg0.win 12).blk t).view.set := by
  refine ⟨pointOf i, flush0_12 _, ?_⟩
  rw [mem_blk12]
  have hi0 : (i 0).val < 640000 := (i 0).isLt
  have hi1 : (i 1).val < 128 := (i 1).isLt
  have ht : (pointOf i).val = (i 0).val / 5120 := rfl
  obtain ⟨f0, f1, f2, f3, f4, f5, f6, f7, f8, f9, f10, f11, f12, f13, f14, f15, f16, f17, f18, f19, f20, f21, f22, f23, f24, f25⟩ := idx_facts (pointOf i)
  intro a
  match a with
  | ⟨0, _⟩ => show win0_12.index (pointOf i) (0 : Fin 2) * 5120 ≤ (i 0).val ∧ (i 0).val < win0_12.index (pointOf i) (0 : Fin 2) * 5120 + 5120; omega
  | ⟨1, _⟩ => show win0_12.index (pointOf i) (1 : Fin 2) * 128 ≤ (i 1).val ∧ (i 1).val < win0_12.index (pointOf i) (1 : Fin 2) * 128 + 128; omega

/-- THE FIRST OUTPUT ARRAY after the run: the updated edge features. -/
theorem final11 (c : Dev nD) : (dats m 0 c).arrAt 11 cfg0.N = edgeK m c :=
  (dats m 0 c).arrAt_eq_of_cover 11 (edgeK m c) (fun t _ => flushed11_eq m c t) cover11

/-- THE SECOND OUTPUT ARRAY after the run: the messages. -/
theorem final12 (c : Dev nD) : (dats m 0 c).arrAt 12 cfg0.N = msgK m c :=
  (dats m 0 c).arrAt_eq_of_cover 12 (msgK m c) (fun t _ => flushed12_eq m c t) cover12

/-! ## The arrays the region finds, as functions of the arguments -/

/-- Argument 0 as launched. -/
abbrev A0 (c : Dev nD) : GraphStep.SX.Idx → EReal := m ((c : Thread nD τ).loc main_arg0)
/-- Argument 1 as launched. -/
abbrev A1 (c : Dev nD) : IVec GraphStep.SI 32 := m ((c : Thread nD τ).loc main_arg1)
/-- Argument 2 as launched. -/
abbrev A2 (c : Dev nD) : GraphStep.SE.Idx → EReal := m ((c : Thread nD τ).loc main_arg2)
/-- Argument 3 as launched. -/
abbrev A3 (c : Dev nD) : (⟨2, ![256, 128]⟩ : Shape).Idx → EReal := m ((c : Thread nD τ).loc main_arg3)
/-- Argument 4 as launched. -/
abbrev A4 (c : Dev nD) : (⟨1, ![128]⟩ : Shape).Idx → EReal := m ((c : Thread nD τ).loc main_arg4)
/-- Argument 5 as launched. -/
abbrev A5 (c : Dev nD) : (⟨2, ![128, 128]⟩ : Shape).Idx → EReal := m ((c : Thread nD τ).loc main_arg5)
/-- Argument 6 as launched. -/
abbrev A6 (c : Dev nD) : (⟨1, ![128]⟩ : Shape).Idx → EReal := m ((c : Thread nD τ).loc main_arg6)
/-- Argument 7 as launched. -/
abbrev A7 (c : Dev nD) : (⟨2, ![384, 128]⟩ : Shape).Idx → EReal := m ((c : Thread nD τ).loc main_arg7)
/-- Argument 8 as launched. -/
abbrev A8 (c : Dev nD) : (⟨1, ![128]⟩ : Shape).Idx → EReal := m ((c : Thread nD τ).loc main_arg8)
/-- Argument 9 as launched. -/
abbrev A9 (c : Dev nD) : (⟨2, ![128, 128]⟩ : Shape).Idx → EReal := m ((c : Thread nD τ).loc main_arg9)
/-- Argument 10 as launched. -/
abbrev A10 (c : Dev nD) : (⟨1, ![128]⟩ : Shape).Idx → EReal := m ((c : Thread nD τ).loc main_arg10)

theorem V_v12 (c : Dev nD) : (V m c main_v12 : S640000x128.Idx → EReal) = GraphStep.rowsAt (A0 m c) (GraphStep.src (A1 m c)) := by
  show StableHlo.after hostOps0 (fun b => m (c, b)) (Proc.devRef .tc main_v12) = _
  after_results
  rfl

theorem V_v19 (c : Dev nD) : (V m c main_v19 : S640000x128.Idx → EReal) = GraphStep.rowsAt (A0 m c) (GraphStep.dst (A1 m c)) := by
  show StableHlo.after hostOps0 (fun b => m (c, b)) (Proc.devRef .tc main_v19) = _
  after_results
  rfl

theorem V_v5 (c : Dev nD) : (V m c main_v5 : S640000x128.Idx → EReal) = A2 m c := by
  show StableHlo.after hostOps0 (fun b => m (c, b)) (Proc.devRef .tc main_v5) = _
  after_results
  rfl

theorem V_v20 (c : Dev nD) : (V m c main_v20 : S384x128.Idx → EReal) = A7 m c := by
  show StableHlo.after hostOps0 (fun b => m (c, b)) (Proc.devRef .tc main_v20) = _
  after_results
  rfl

theorem V_v21 (c : Dev nD) : (V m c main_v21 : S128x128.Idx → EReal) = A9 m c := by
  show StableHlo.after hostOps0 (fun b => m (c, b)) (Proc.devRef .tc main_v21) = _
  after_results
  rfl

theorem V_v22 (c : Dev nD) : (V m c main_v22 : S256x128.Idx → EReal) = A3 m c := by
  show StableHlo.after hostOps0 (fun b => m (c, b)) (Proc.devRef .tc main_v22) = _
  after_results
  rfl

theorem V_v23 (c : Dev nD) : (V m c main_v23 : S128x128.Idx → EReal) = A5 m c := by
  show StableHlo.after hostOps0 (fun b => m (c, b)) (Proc.devRef .tc main_v23) = _
  after_results
  rfl

theorem V_v24 (c : Dev nD) : (V m c main_v24 : S1x128.Idx → EReal) = shapeCast S1x128 (A8 m c) shapeCasts_S128_S1x128 := by
  show StableHlo.after hostOps0 (fun b => m (c, b)) (Proc.devRef .tc main_v24) = _
  after_results
  rfl

theorem V_v25 (c : Dev nD) : (V m c main_v25 : S1x128.Idx → EReal) = shapeCast S1x128 (A10 m c) shapeCasts_S128_S1x128 := by
  show StableHlo.after hostOps0 (fun b => m (c, b)) (Proc.devRef .tc main_v25) = _
  after_results
  rfl

theorem V_v26 (c : Dev nD) : (V m c main_v26 : S1x128.Idx → EReal) = shapeCast S1x128 (A4 m c) shapeCasts_S128_S1x128 := by
  show StableHlo.after hostOps0 (fun b => m (c, b)) (Proc.devRef .tc main_v26) = _
  after_results
  rfl

theorem V_v27 (c : Dev nD) : (V m c main_v27 : S1x128.Idx → EReal) = shapeCast S1x128 (A6 m c) shapeCasts_S128_S1x128 := by
  show StableHlo.after hostOps0 (fun b => m (c, b)) (Proc.devRef .tc main_v27) = _
  after_results
  rfl

/-- The region's first output is the step's updated edge features of the arguments. -/
theorem edgeK_eq (c : Dev nD) :
    edgeK m c = GraphStep.edges (A0 m c) (A1 m c) (A2 m c) (A7 m c) (A8 m c) (A9 m c) (A10 m c) := by
  unfold edgeK GraphStep.edges
  rw [V_v12 m c, V_v19 m c, V_v5 m c, V_v20 m c, V_v21 m c, V_v24 m c, V_v25 m c, castRow_row, castRow_row]

/-- The region's second output is the step's messages of the arguments. -/
theorem msgK_eq (c : Dev nD) :
    msgK m c = GraphStep.messages (A0 m c) (A1 m c)
      (GraphStep.edges (A0 m c) (A1 m c) (A2 m c) (A7 m c) (A8 m c) (A9 m c) (A10 m c)) (A3 m c) (A4 m c) (A5 m c) (A6 m c) := by
  unfold msgK GraphStep.messages
  rw [edgeK_eq m c, V_v12 m c, V_v22 m c, V_v23 m c, V_v26 m c, V_v27 m c, castRow_row, castRow_row]

/-! ## The host's sum of the messages, and the run -/

/-- After the region the host holds, in its result buffer, the messages summed into their destination nodes. -/
theorem tail_v31 (c : Dev nD) :
    (Pipeline.afterTail₀ cfgs (dats m) 0 (V0 m) [hostOps1] c main_v31 : S10000x128.Idx → EReal)
      = GraphStep.nodes (A1 m c) (msgK m c) := by
  have hM : Pipeline.withArrays (cfgs 0).spec c (V0 m c) (fun w => (dats m 0 c).arrAt w (cfgs 0).N) (Proc.devRef .tc main_v28_1)
      = msgK m c :=
    (Pipeline.withArrays_arr spec0 launch0.win.arr_inj c _ _ 12).trans (final12 m c)
  have hI : (Pipeline.withArrays (cfgs 0).spec c (V0 m c) (fun w => (dats m 0 c).arrAt w (cfgs 0).N) (Proc.devRef .tc main_v3)
        : S640000.Idx → BitVec 32) = GraphStep.dst (A1 m c) :=
    (Pipeline.withArrays_of_ne _ c (V0 m c) _ main_v3 (by exact (by decide : ∀ w, Pipeline.arrRef spec0 w ≠ main_v3))).trans (by
      show StableHlo.after hostOps0 (fun b => m (c, b)) (Proc.devRef .tc main_v3) = _
      after_results
      rfl)
  unfold Pipeline.afterTail₀
  show StableHlo.after hostOps1 _ (Proc.devRef .tc main_v31) = _
  after_results
  rw [hM, hI]
  rfl

/-- THE RUN, READ: every weakly fair execution of the idealized kernel program terminates with its first result at the
    step's node sums, its second at the step's updated edge features, and its arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v31) = GraphStep.nodes (A1 m c) (GraphStep.messages (A0 m c) (A1 m c)
          (GraphStep.edges (A0 m c) (A1 m c) (A2 m c) (A7 m c) (A8 m c) (A9 m c) (A10 m c)) (A3 m c) (A4 m c) (A5 m c) (A6 m c))
      ∧ r.2.mem ((c : Thread nD τ).loc main_v28_0) = GraphStep.edges (A0 m c) (A1 m c) (A2 m c) (A7 m c) (A8 m c) (A9 m c) (A10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨
      (((h c).2 main_v31 (Pipeline.mem_restRefs_of main_v31 (by decide) (by decide))).trans (tail_v31 m c)).trans
        (congrArg (GraphStep.nodes (A1 m c)) (msgK_eq m c)),
      ((h c).1 11).trans ((final11 m c).trans (edgeK_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.EdgeValue

end
-- ==== Proof.RefEdge.lean ====
/-
  The reference program's two results as functions of its arguments.

  The program is one straight line of 72 host operations: the two endpoint lookups, the first perceptron (a product, a
  bias, the softplus function's thirteen operations, a product, a bias), the second perceptron on the looked-up rows and
  the first one's result, and the sum of its result into the destination nodes. Each softplus reads its operand five
  times, so the line is read in five stretches — before the first softplus, the first softplus, between the two, the
  second softplus, after it — with the contents between two stretches kept as a variable: a stretch's results are
  functions of what the stretch finds. The first perceptron's result is the step's updated edge features and the sum is
  the step's node sums.
-/
import proofs.«144321_j74637941670346_2_alg».proof.Proof.RefRunP
import proofs.«144321_j74637941670346_2_alg».proof.Proof.GraphStep

set_option maxRecDepth 16384

noncomputable section

namespace Cert.ReferenceIdeal.EdgeValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.EdgeMlp

/-! ## The five stretches of the line -/

section Stretches
variable {F : FTy → Type} [FloatOps F]

/-- The endpoint lookups and the first perceptron's first layer. -/
abbrev s1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 10000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v3 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 10000#32),
    unary main_c_2 main_v13 (broadcastInDim S640000 ![] bcast_S_S640000 : (⟨S_, .i32⟩ : BufTy).Contents (Elt F) → (⟨S640000, .i32⟩ : BufTy).Contents (Elt F)),
    binary main_v3 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    nary ![main_v10, main_v17, main_arg2] main_v18 (fun u => concatenate S640000x384 1 [⟨S640000x128, u 0⟩, ⟨S640000x128, u 1⟩, ⟨S640000x128, u 2⟩] concatenates_S640000x128_S640000x128_S640000x128_S640000x384_d1),
    binary main_v18 main_arg7 main_v19 ((fun l r => Host.dotGeneral dot_S640000x384_S384x128_S640000x128_1_0_0_1_n_n none l r) : (⟨S640000x384, .f32⟩ : BufTy).Contents (Elt F) → (⟨S384x128, .f32⟩ : BufTy).Contents (Elt F) → (⟨S640000x128, .f32⟩ : BufTy).Contents (Elt F)),
    unary main_arg8 main_v20 (broadcastInDim S1x128 ![1] bcast_S128_S1x128_1 : (⟨S128, .f32⟩ : BufTy).Contents (Elt F) → (⟨S1x128, .f32⟩ : BufTy).Contents (Elt F)),
    unary main_v20 main_v21 (broadcastInDim S640000x128 ![0, 1] bcast_S1x128_S640000x128_0_1 : (⟨S1x128, .f32⟩ : BufTy).Contents (Elt F) → (⟨S640000x128, .f32⟩ : BufTy).Contents (Elt F)),
    binary main_v19 main_v21 main_v22 (addf : (⟨S640000x128, .f32⟩ : BufTy).Contents (Elt F) → (⟨S640000x128, .f32⟩ : BufTy).Contents (Elt F) → (⟨S640000x128, .f32⟩ : BufTy).Contents (Elt F)) ]

/-- The first softplus. -/
abbrev s2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S640000x128, .f32⟩) main_call0_v0) (broadcastInDim S640000x128 ![] bcast_S_S640000x128),
    TRef.binary (TRef.of (T := ⟨S640000x128, .f32⟩) main_v22) (TRef.of (T := ⟨S640000x128, .f32⟩) main_call0_v0) (TRef.of (T := ⟨S640000x128, .f32⟩) main_call0_v1) maximumf,
    TRef.unary (TRef.of (T := ⟨S_, .f32⟩) main_call0_cst) (TRef.of (T := ⟨S640000x128, .f32⟩) main_call0_v2) (broadcastInDim S640000x128 ![] bcast_S_S640000x128),
    TRef.binary (TRef.of (T := ⟨S640000x128, .f32⟩) main_v22) (TRef.of (T := ⟨S640000x128, .f32⟩) main_call0_v2) (TRef.of (T := ⟨S640000x128, .f32⟩) main_call0_v3) subf,
    TRef.binary (TRef.of (T := ⟨S640000x128, .f32⟩) main_call0_v3) (TRef.of (T := ⟨S640000x128, .f32⟩) main_call0_v3) (TRef.of (T := ⟨S640000x128, .i1⟩) main_call0_v4) (cmpf .une),
    TRef.unary (TRef.of (T := ⟨S_, .f32⟩) main_call0_cst) (TRef.of (T := ⟨S640000x128, .f32⟩) main_call0_v5) (broadcastInDim S640000x128 ![] bcast_S_S640000x128),
    TRef.binary (TRef.of (T := ⟨S640000x128, .f32⟩) main_v22) (TRef.of (T := ⟨S640000x128, .f32⟩) main_call0_v5) (TRef.of (T := ⟨S640000x128, .f32⟩) main_call0_v6) addf,
    TRef.unary (TRef.of (T := ⟨S640000x128, .f32⟩) main_call0_v3) (TRef.of (T := ⟨S640000x128, .f32⟩) main_call0_v7) Host.absf,
    TRef.unary (TRef.of (T := ⟨S640000x128, .f32⟩) main_call0_v7) (TRef.of (T := ⟨S640000x128, .f32⟩) main_call0_v8) Host.negf,
    TRef.unary (TRef.of (T := ⟨S640000x128, .f32⟩) main_call0_v8) (TRef.of (T := ⟨S640000x128, .f32⟩) main_call0_v9) Host.exp,
    TRef.unary (TRef.of (T := ⟨S640000x128, .f32⟩) main_call0_v9) (TRef.of (T := ⟨S640000x128, .f32⟩) main_call0_v10) Host.log1p,
    TRef.binary (TRef.of (T := ⟨S640000x128, .f32⟩) main_call0_v1) (TRef.of (T := ⟨S640000x128, .f32⟩) main_call0_v10) (TRef.of (T := ⟨S640000x128, .f32⟩) main_call0_v11) addf,
    TRef.ternary (TRef.of (T := ⟨S640000x128, .i1⟩) main_call0_v4) (TRef.of (T := ⟨S640000x128, .f32⟩) main_call0_v6) (TRef.of (T := ⟨S640000x128, .f32⟩) main_call0_v11) (TRef.of (T := ⟨S640000x128, .f32⟩) main_v23) select ]

/-- The first perceptron's second layer and the second perceptron's first layer. -/
abbrev s3 : List (HloOp τ sig (Elt F)) :=
  [ binary main_v23 main_arg9 main_v24 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg10 main_v25 (broadcastInDim S1x128 ![1] bcast_S128_S1x128_1 : (⟨S128, .f32⟩ : BufTy).Contents (Elt F) → (⟨S1x128, .f32⟩ : BufTy).Contents (Elt F)),
    unary main_v25 main_v26 (broadcastInDim S640000x128 ![0, 1] bcast_S1x128_S640000x128_0_1 : (⟨S1x128, .f32⟩ : BufTy).Contents (Elt F) → (⟨S640000x128, .f32⟩ : BufTy).Contents (Elt F)),
    binary main_v24 main_v26 main_v27 (addf : (⟨S640000x128, .f32⟩ : BufTy).Contents (Elt F) → (⟨S640000x128, .f32⟩ : BufTy).Contents (Elt F) → (⟨S640000x128, .f32⟩ : BufTy).Contents (Elt F)),
    binary main_v10 main_v27 main_v28 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    binary main_v28 main_arg3 main_v29 ((fun l r => Host.dotGeneral dot_S640000x256_S256x128_S640000x128_1_0_0_1_n_n none l r) : (⟨S640000x256, .f32⟩ : BufTy).Contents (Elt F) → (⟨S256x128, .f32⟩ : BufTy).Contents (Elt F) → (⟨S640000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S640000x128 ![0, 1] bcast_S1x128_S640000x128_0_1 : (⟨S1x128, .f32⟩ : BufTy).Contents (Elt F) → (⟨S640000x128, .f32⟩ : BufTy).Contents (Elt F)),
    binary main_v29 main_v31 main_v32 (addf : (⟨S640000x128, .f32⟩ : BufTy).Contents (Elt F) → (⟨S640000x128, .f32⟩ : BufTy).Contents (Elt F) → (⟨S640000x128, .f32⟩ : BufTy).Contents (Elt F)) ]

/-- The second softplus. -/
abbrev s4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S640000x128, .f32⟩) main_call1_v0) (broadcastInDim S640000x128 ![] bcast_S_S640000x128),
    TRef.binary (TRef.of (T := ⟨S640000x128, .f32⟩) main_v32) (TRef.of (T := ⟨S640000x128, .f32⟩) main_call1_v0) (TRef.of (T := ⟨S640000x128, .f32⟩) main_call1_v1) maximumf,
    TRef.unary (TRef.of (T := ⟨S_, .f32⟩) main_call1_cst) (TRef.of (T := ⟨S640000x128, .f32⟩) main_call1_v2) (broadcastInDim S640000x128 ![] bcast_S_S640000x128),
    TRef.binary (TRef.of (T := ⟨S640000x128, .f32⟩) main_v32) (TRef.of (T := ⟨S640000x128, .f32⟩) main_call1_v2) (TRef.of (T := ⟨S640000x128, .f32⟩) main_call1_v3) subf,
    TRef.binary (TRef.of (T := ⟨S640000x128, .f32⟩) main_call1_v3) (TRef.of (T := ⟨S640000x128, .f32⟩) main_call1_v3) (TRef.of (T := ⟨S640000x128, .i1⟩) main_call1_v4) (cmpf .une),
    TRef.unary (TRef.of (T := ⟨S_, .f32⟩) main_call1_cst) (TRef.of (T := ⟨S640000x128, .f32⟩) main_call1_v5) (broadcastInDim S640000x128 ![] bcast_S_S640000x128),
    TRef.binary (TRef.of (T := ⟨S640000x128, .f32⟩) main_v32) (TRef.of (T := ⟨S640000x128, .f32⟩) main_call1_v5) (TRef.of (T := ⟨S640000x128, .f32⟩) main_call1_v6) addf,
    TRef.unary (TRef.of (T := ⟨S640000x128, .f32⟩) main_call1_v3) (TRef.of (T := ⟨S640000x128, .f32⟩) main_call1_v7) Host.absf,
    TRef.unary (TRef.of (T := ⟨S640000x128, .f32⟩) main_call1_v7) (TRef.of (T := ⟨S640000x128, .f32⟩) main_call1_v8) Host.negf,
    TRef.unary (TRef.of (T := ⟨S640000x128, .f32⟩) main_call1_v8) (TRef.of (T := ⟨S640000x128, .f32⟩) main_call1_v9) Host.exp,
    TRef.unary (TRef.of (T := ⟨S640000x128, .f32⟩) main_call1_v9) (TRef.of (T := ⟨S640000x128, .f32⟩) main_call1_v10) Host.log1p,
    TRef.binary (TRef.of (T := ⟨S640000x128, .f32⟩) main_call1_v1) (TRef.of (T := ⟨S640000x128, .f32⟩) main_call1_v10) (TRef.of (T := ⟨S640000x128, .f32⟩) main_call1_v11) addf,
    TRef.ternary (TRef.of (T := ⟨S640000x128, .i1⟩) main_call1_v4) (TRef.of (T := ⟨S640000x128, .f32⟩) main_call1_v6) (TRef.of (T := ⟨S640000x128, .f32⟩) main_call1_v11) (TRef.of (T := ⟨S640000x128, .f32⟩) main_v33) select ]

/-- The second perceptron's second layer and the sum into the destination nodes. -/
abbrev s5 : List (HloOp τ sig (Elt F)) :=
  [ binary main_v33 main_arg5 main_v34 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg6 main_v35 (broadcastInDim S1x128 ![1] bcast_S128_S1x128_1 : (⟨S128, .f32⟩ : BufTy).Contents (Elt F) → (⟨S1x128, .f32⟩ : BufTy).Contents (Elt F)),
    unary main_v35 main_v36 (broadcastInDim S640000x128 ![0, 1] bcast_S1x128_S640000x128_0_1 : (⟨S1x128, .f32⟩ : BufTy).Contents (Elt F) → (⟨S640000x128, .f32⟩ : BufTy).Contents (Elt F)),
    binary main_v34 main_v36 main_v37 (addf : (⟨S640000x128, .f32⟩ : BufTy).Contents (Elt F) → (⟨S640000x128, .f32⟩ : BufTy).Contents (Elt F) → (⟨S640000x128, .f32⟩ : BufTy).Contents (Elt F)),
    nullary main_cst (constant S_ .f32 0x00000000#32),
    unary main_cst main_v38 (broadcastInDim S10000x128 ![] bcast_S_S10000x128 : (⟨S_, .f32⟩ : BufTy).Contents (Elt F) → (⟨S10000x128, .f32⟩ : BufTy).Contents (Elt F)),
    unary main_v3 main_v39 (broadcastInDim S640000x1 ![0] bcast_S640000_S640000x1_0 : (⟨S640000, .i32⟩ : BufTy).Contents (Elt F) → (⟨S640000x1, .i32⟩ : BufTy).Contents (Elt F)),
    ternary main_v38 main_v39 main_v37 main_v40 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

theorem ops_split : (ops : List (HloOp τ sig (Elt F))) = s1 ++ (s2 ++ (s3 ++ (s4 ++ s5))) := rfl

end Stretches

variable (W : Valuation τ sig (Elt Ideal))

/-! ## What each stretch computes from what it finds -/

theorem s1_v22 : (after s1 W (Proc.devRef .tc main_v22) : S640000x128.Idx → EReal)
    = dotLayer (φ₁ := .f32) (φ₂ := .f32) dot_S640000x384_S384x128_S640000x128_1_0_0_1_n_n_wf bcast_S128_S1x128_1 bcast_S1x128_S640000x128_0_1
        (concatenate S640000x384 1 [⟨S640000x128, GraphStep.rowsAt (W (Proc.devRef .tc main_arg0)) (GraphStep.src (W (Proc.devRef .tc main_arg1)))⟩,
          ⟨S640000x128, GraphStep.rowsAt (W (Proc.devRef .tc main_arg0)) (GraphStep.dst (W (Proc.devRef .tc main_arg1)))⟩,
          ⟨S640000x128, W (Proc.devRef .tc main_arg2)⟩] concatenates_S640000x128_S640000x128_S640000x128_S640000x384_d1)
        (W (Proc.devRef .tc main_arg7)) (W (Proc.devRef .tc main_arg8)) := by
  after_results_simp
  rfl

theorem s2_v23 : (after s2 W (Proc.devRef .tc main_v23) : S640000x128.Idx → EReal)
    = softplusNeg bcast_S_S640000x128 (W (Proc.devRef .tc main_v22)) := by
  after_results_simp
  rfl

theorem s12_v10 : (after s2 (after s1 W) (Proc.devRef .tc main_v10) : S640000x128.Idx → EReal)
    = GraphStep.rowsAt (W (Proc.devRef .tc main_arg0)) (GraphStep.src (W (Proc.devRef .tc main_arg1))) := by
  after_results_simp
  rfl

theorem s12_arg9 : after s2 (after s1 W) (Proc.devRef .tc main_arg9) = W (Proc.devRef .tc main_arg9) := by
  after_results_simp

theorem s12_arg10 : after s2 (after s1 W) (Proc.devRef .tc main_arg10) = W (Proc.devRef .tc main_arg10) := by
  after_results_simp

theorem s12_arg3 : after s2 (after s1 W) (Proc.devRef .tc main_arg3) = W (Proc.devRef .tc main_arg3) := by
  after_results_simp

theorem s12_arg4 : after s2 (after s1 W) (Proc.devRef .tc main_arg4) = W (Proc.devRef .tc main_arg4) := by
  after_results_simp

theorem s3_v27 : (after s3 W (Proc.devRef .tc main_v27) : S640000x128.Idx → EReal)
    = dotLayer (φ₁ := .f32) (φ₂ := .f32) dot_S640000x128_S128x128_S640000x128_1_0_0_1_n_n_wf bcast_S128_S1x128_1 bcast_S1x128_S640000x128_0_1
        (W (Proc.devRef .tc main_v23)) (W (Proc.devRef .tc main_arg9)) (W (Proc.devRef .tc main_arg10)) := by
  after_results_simp
  rfl

theorem s3_v32 : (after s3 W (Proc.devRef .tc main_v32) : S640000x128.Idx → EReal)
    = dotLayer (φ₁ := .f32) (φ₂ := .f32) dot_S640000x256_S256x128_S640000x128_1_0_0_1_n_n_wf bcast_S128_S1x128_1 bcast_S1x128_S640000x128_0_1
        (concatenate S640000x256 1 [⟨S640000x128, W (Proc.devRef .tc main_v10)⟩,
          ⟨S640000x128, dotLayer (φ₁ := .f32) (φ₂ := .f32) dot_S640000x128_S128x128_S640000x128_1_0_0_1_n_n_wf bcast_S128_S1x128_1 bcast_S1x128_S640000x128_0_1
            (W (Proc.devRef .tc main_v23)) (W (Proc.devRef .tc main_arg9)) (W (Proc.devRef .tc main_arg10))⟩] concatenates_S640000x128_S640000x128_S640000x256_d1)
        (W (Proc.devRef .tc main_arg3)) (W (Proc.devRef .tc main_arg4)) := by
  after_results_simp
  rfl

theorem s4_v33 : (after s4 W (Proc.devRef .tc main_v33) : S640000x128.Idx → EReal)
    = softplusNeg bcast_S_S640000x128 (W (Proc.devRef .tc main_v32)) := by
  after_results_simp
  rfl

theorem s45_v27 : after s5 (after s4 W) (Proc.devRef .tc main_v27) = W (Proc.devRef .tc main_v27) := by
  after_results_simp

theorem s5_v40 : (after s5 W (Proc.devRef .tc main_v40) : S10000x128.Idx → EReal)
    = GraphStep.nodesAt (W (Proc.devRef .tc main_v3))
        (dotLayer (φ₁ := .f32) (φ₂ := .f32) dot_S640000x128_S128x128_S640000x128_1_0_0_1_n_n_wf bcast_S128_S1x128_1 bcast_S1x128_S640000x128_0_1
          (W (Proc.devRef .tc main_v33)) (W (Proc.devRef .tc main_arg5)) (W (Proc.devRef .tc main_arg6))) := by
  after_results_simp
  rfl

theorem s1234_v3 : (after s4 (after s3 (after s2 (after s1 W))) (Proc.devRef .tc main_v3) : S640000.Idx → BitVec 32)
    = GraphStep.dst (W (Proc.devRef .tc main_arg1)) := by
  after_results_simp
  rfl

theorem s1234_arg5 : after s4 (after s3 (after s2 (after s1 W))) (Proc.devRef .tc main_arg5) = W (Proc.devRef .tc main_arg5) := by
  after_results_simp

theorem s1234_arg6 : after s4 (after s3 (after s2 (after s1 W))) (Proc.devRef .tc main_arg6) = W (Proc.devRef .tc main_arg6) := by
  after_results_simp

/-! ## The two results -/

variable (m : (ℓ : Loc nD τ sig) → Buf (Elt Ideal) ℓ)

/-- Argument 0 as launched. -/
abbrev A0 (c : Dev nD) : GraphStep.SX.Idx → EReal := m ((c.tc : Thread nD τ).loc main_arg0)
/-- Argument 1 as launched. -/
abbrev A1 (c : Dev nD) : IVec GraphStep.SI 32 := m ((c.tc : Thread nD τ).loc main_arg1)
/-- Argument 2 as launched. -/
abbrev A2 (c : Dev nD) : GraphStep.SE.Idx → EReal := m ((c.tc : Thread nD τ).loc main_arg2)
/-- Argument 3 as launched. -/
abbrev A3 (c : Dev nD) : (⟨2, ![256, 128]⟩ : Shape).Idx → EReal := m ((c.tc : Thread nD τ).loc main_arg3)
/-- Argument 4 as launched. -/
abbrev A4 (c : Dev nD) : (⟨1, ![128]⟩ : Shape).Idx → EReal := m ((c.tc : Thread nD τ).loc main_arg4)
/-- Argument 5 as launched. -/
abbrev A5 (c : Dev nD) : (⟨2, ![128, 128]⟩ : Shape).Idx → EReal := m ((c.tc : Thread nD τ).loc main_arg5)
/-- Argument 6 as launched. -/
abbrev A6 (c : Dev nD) : (⟨1, ![128]⟩ : Shape).Idx → EReal := m ((c.tc : Thread nD τ).loc main_arg6)
/-- Argument 7 as launched. -/
abbrev A7 (c : Dev nD) : (⟨2, ![384, 128]⟩ : Shape).Idx → EReal := m ((c.tc : Thread nD τ).loc main_arg7)
/-- Argument 8 as launched. -/
abbrev A8 (c : Dev nD) : (⟨1, ![128]⟩ : Shape).Idx → EReal := m ((c.tc : Thread nD τ).loc main_arg8)
/-- Argument 9 as launched. -/
abbrev A9 (c : Dev nD) : (⟨2, ![128, 128]⟩ : Shape).Idx → EReal := m ((c.tc : Thread nD τ).loc main_arg9)
/-- Argument 10 as launched. -/
abbrev A10 (c : Dev nD) : (⟨1, ![128]⟩ : Shape).Idx → EReal := m ((c.tc : Thread nD τ).loc main_arg10)

/-- The first perceptron's result, before it is recognised as the step's. -/
def edgeTerm (c : Dev nD) : S640000x128.Idx → EReal :=
  dotMlp dot_S640000x384_S384x128_S640000x128_1_0_0_1_n_n_wf dot_S640000x128_S128x128_S640000x128_1_0_0_1_n_n_wf
    bcast_S_S640000x128 bcast_S128_S1x128_1 bcast_S1x128_S640000x128_0_1
    (concatenate S640000x384 1 [⟨S640000x128, GraphStep.rowsAt (A0 m c) (GraphStep.src (A1 m c))⟩,
      ⟨S640000x128, GraphStep.rowsAt (A0 m c) (GraphStep.dst (A1 m c))⟩, ⟨S640000x128, A2 m c⟩]
      concatenates_S640000x128_S640000x128_S640000x128_S640000x384_d1)
    (A7 m c) (A8 m c) (A9 m c) (A10 m c)

/-- It is the step's updated edge features. -/
theorem edgeTerm_eq (c : Dev nD) :
    edgeTerm m c = GraphStep.edges (A0 m c) (A1 m c) (A2 m c) (A7 m c) (A8 m c) (A9 m c) (A10 m c) := by
  funext i
  obtain ⟨p, q, rfl⟩ : ∃ (p : Fin 640000) (q : Fin 128), i = ix2 p q := ⟨i 0, i 1, eq_ix2 i⟩
  unfold edgeTerm
  exact dotMlp_cat3 _ _ _ _ _ _ _ _ _ _ _ _ _ p q

/-- The contents the line leaves in its second result: the step's updated edge features. -/
theorem edges_eq (c : Dev nD) :
    (after ops (launchContents m c) (Proc.devRef .tc main_v27) : S640000x128.Idx → EReal)
      = GraphStep.edges (A0 m c) (A1 m c) (A2 m c) (A7 m c) (A8 m c) (A9 m c) (A10 m c) := by
  rw [ops_split, StableHlo.after_append, StableHlo.after_append, StableHlo.after_append, StableHlo.after_append, s45_v27, s3_v27, s2_v23, s1_v22,
    s12_arg9, s12_arg10]
  exact edgeTerm_eq m c

/-- The contents the line leaves in its first result: the step's node sums. -/
theorem nodes_eq (c : Dev nD) :
    (after ops (launchContents m c) (Proc.devRef .tc main_v40) : S10000x128.Idx → EReal)
      = GraphStep.nodes (A1 m c) (GraphStep.messages (A0 m c) (A1 m c)
          (GraphStep.edges (A0 m c) (A1 m c) (A2 m c) (A7 m c) (A8 m c) (A9 m c) (A10 m c)) (A3 m c) (A4 m c) (A5 m c) (A6 m c)) := by
  rw [ops_split, StableHlo.after_append, StableHlo.after_append, StableHlo.after_append, StableHlo.after_append, s5_v40, s1234_v3, s1234_arg5, s1234_arg6,
    s4_v33, s3_v32, s2_v23, s1_v22, s12_arg9, s12_arg10, s12_arg3, s12_arg4, s12_v10]
  unfold GraphStep.nodes
  refine congrArg (GraphStep.nodesAt (GraphStep.dst (A1 m c))) ?_
  show dotMlp dot_S640000x256_S256x128_S640000x128_1_0_0_1_n_n_wf dot_S640000x128_S128x128_S640000x128_1_0_0_1_n_n_wf
      bcast_S_S640000x128 bcast_S128_S1x128_1 bcast_S1x128_S640000x128_0_1
      (concatenate S640000x256 1 [⟨S640000x128, GraphStep.rowsAt (A0 m c) (GraphStep.src (A1 m c))⟩, ⟨S640000x128, edgeTerm m c⟩]
        concatenates_S640000x128_S640000x128_S640000x256_d1)
      (A3 m c) (A4 m c) (A5 m c) (A6 m c) = _
  rw [edgeTerm_eq]
  funext i
  obtain ⟨p, q, rfl⟩ : ∃ (p : Fin 640000) (q : Fin 128), i = ix2 p q := ⟨i 0, i 1, eq_ix2 i⟩
  exact dotMlp_cat2 _ _ _ _ _ _ _ _ _ _ _ _ p q

/-! ## The arguments are never written -/

set_option maxHeartbeats 4000000 in
theorem kept_arg0 (c : Dev nD) :
    after ops (launchContents m c) (Proc.devRef .tc main_arg0) = m ((c.tc : Thread nD τ).loc main_arg0) := by
  after_results_simp <;> rfl

set_option maxHeartbeats 4000000 in
theorem kept_arg1 (c : Dev nD) :
    after ops (launchContents m c) (Proc.devRef .tc main_arg1) = m ((c.tc : Thread nD τ).loc main_arg1) := by
  after_results_simp <;> rfl

set_option maxHeartbeats 4000000 in
theorem kept_arg2 (c : Dev nD) :
    after ops (launchContents m c) (Proc.devRef .tc main_arg2) = m ((c.tc : Thread nD τ).loc main_arg2) := by
  after_results_simp <;> rfl

set_option maxHeartbeats 4000000 in
theorem kept_arg3 (c : Dev nD) :
    after ops (launchContents m c) (Proc.devRef .tc main_arg3) = m ((c.tc : Thread nD τ).loc main_arg3) := by
  after_results_simp <;> rfl

set_option maxHeartbeats 4000000 in
theorem kept_arg4 (c : Dev nD) :
    after ops (launchContents m c) (Proc.devRef .tc main_arg4) = m ((c.tc : Thread nD τ).loc main_arg4) := by
  after_results_simp <;> rfl

set_option maxHeartbeats 4000000 in
theorem kept_arg5 (c : Dev nD) :
    after ops (launchContents m c) (Proc.devRef .tc main_arg5) = m ((c.tc : Thread nD τ).loc main_arg5) := by
  after_results_simp <;> rfl

set_option maxHeartbeats 4000000 in
theorem kept_arg6 (c : Dev nD) :
    after ops (launchContents m c) (Proc.devRef .tc main_arg6) = m ((c.tc : Thread nD τ).loc main_arg6) := by
  after_results_simp <;> rfl

set_option maxHeartbeats 4000000 in
theorem kept_arg7 (c : Dev nD) :
    after ops (launchContents m c) (Proc.devRef .tc main_arg7) = m ((c.tc : Thread nD τ).loc main_arg7) := by
  after_results_simp <;> rfl

set_option maxHeartbeats 4000000 in
theorem kept_arg8 (c : Dev nD) :
    after ops (launchContents m c) (Proc.devRef .tc main_arg8) = m ((c.tc : Thread nD τ).loc main_arg8) := by
  after_results_simp <;> rfl

set_option maxHeartbeats 4000000 in
theorem kept_arg9 (c : Dev nD) :
    after ops (launchContents m c) (Proc.devRef .tc main_arg9) = m ((c.tc : Thread nD τ).loc main_arg9) := by
  after_results_simp <;> rfl

set_option maxHeartbeats 4000000 in
theorem kept_arg10 (c : Dev nD) :
    after ops (launchContents m c) (Proc.devRef .tc main_arg10) = m ((c.tc : Thread nD τ).loc main_arg10) := by
  after_results_simp <;> rfl

/-- THE RUN, READ: every weakly fair execution of the idealized reference program terminates with its first result at
    the step's node sums, its second at the step's updated edge features, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v40) = GraphStep.nodes (A1 m c) (GraphStep.messages (A0 m c) (A1 m c)
          (GraphStep.edges (A0 m c) (A1 m c) (A2 m c) (A7 m c) (A8 m c) (A9 m c) (A10 m c)) (A3 m c) (A4 m c) (A5 m c) (A6 m c))
      ∧ r.2.mem ((c.tc : Thread nD τ).loc main_v27) = GraphStep.edges (A0 m c) (A1 m c) (A2 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v40).trans (nodes_eq m c), (h c main_v27).trans (edges_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (run_after m ρ)

end Cert.ReferenceIdeal.EdgeValue

end
-- ==== Proof.lean ====
/-
  The certificate of one message-passing step: a kernel that runs the step's two perceptrons over blocks of 5120 edges
  between a host-side lookup of the endpoint rows and a host-side sum into the destination nodes, against the same step
  written with whole-array operations.

  Over the extended reals a change of float format is the identity, a matrix unit's product into a zero accumulator and
  a general dot product are the same sum, and an output row of either perceptron depends on one row of its inputs only.
  So both programs end with the SAME two functions of the arguments (the module GraphStep): the updated edge features,
  and the messages summed into their destination nodes. The kernel side reads them off the generated frame run, block
  by block (KernelEdge); the reference side reads its straight line in five stretches (RefEdge). No step of the argument
  moves a factor across a sum or cancels anything, so finiteness of the inputs is never used. The ideal pass rewrote no
  operation, so the idealization statement is trivial; the frames of the two kernel programs are the generated ones, and
  the reference's frame is its run with the results dropped.
-/
import proofs.«144321_j74637941670346_2_alg».proof.Defs
import proofs.«144321_j74637941670346_2_alg».proof.Proof.Gen.Kernel
import proofs.«144321_j74637941670346_2_alg».proof.Proof.Gen.Kernel.Skeleton
import proofs.«144321_j74637941670346_2_alg».proof.Proof.Gen.Kernel.Launch
import proofs.«144321_j74637941670346_2_alg».proof.Proof.Gen.Kernel.Points
import proofs.«144321_j74637941670346_2_alg».proof.Proof.Gen.Kernel.Frame
import proofs.«144321_j74637941670346_2_alg».proof.Proof.Gen.KernelIdeal
import proofs.«144321_j74637941670346_2_alg».proof.Proof.Gen.KernelIdeal.Skeleton
import proofs.«144321_j74637941670346_2_alg».proof.Proof.Gen.KernelIdeal.Launch
import proofs.«144321_j74637941670346_2_alg».proof.Proof.Gen.KernelIdeal.Points
import proofs.«144321_j74637941670346_2_alg».proof.Proof.Gen.KernelIdeal.Frame
import proofs.«144321_j74637941670346_2_alg».proof.Proof.Gen.ReferenceIdeal
import proofs.«144321_j74637941670346_2_alg».proof.Proof.Gen.Pre_finite_inputs
import proofs.«144321_j74637941670346_2_alg».proof.Proof.KernelEdge
import proofs.«144321_j74637941670346_2_alg».proof.Proof.RefEdge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the two results dropped. -/
theorem frame_ri : Cert.frame_ReferenceIdeal := fun m ρ _ =>
  (θ_run Cert.ReferenceIdeal.defs _ _).mono (fun _ h c => (h c).2.2) (Cert.ReferenceIdeal.EdgeValue.run m ρ)

/-- Both programs end at the step's node sums and updated edge features of arguments that agree. -/
theorem algebraic : Cert.algebraic_KernelIdeal_ReferenceIdeal := by
  intro m ρ m' ρ' _ hagree
  refine ⟨_, _, Cert.KernelIdeal.EdgeValue.run m ρ, ?_⟩
  refine (θ_run Cert.ReferenceIdeal.defs _ _).mono (fun _ h c => ?_) (Cert.ReferenceIdeal.EdgeValue.run m' ρ')
  obtain ⟨h0, h1, h2, h3, h4, h5, h6, h7, h8, h9, h10⟩ := hagree c
  have e0 : Cert.ReferenceIdeal.EdgeValue.A0 m' c = Cert.KernelIdeal.EdgeValue.A0 m c := h0
  have e1 : Cert.ReferenceIdeal.EdgeValue.A1 m' c = Cert.KernelIdeal.EdgeValue.A1 m c := h1
  have e2 : Cert.ReferenceIdeal.EdgeValue.A2 m' c = Cert.KernelIdeal.EdgeValue.A2 m c := h2
  have e3 : Cert.ReferenceIdeal.EdgeValue.A3 m' c = Cert.KernelIdeal.EdgeValue.A3 m c := h3
  have e4 : Cert.ReferenceIdeal.EdgeValue.A4 m' c = Cert.KernelIdeal.EdgeValue.A4 m c := h4
  have e5 : Cert.ReferenceIdeal.EdgeValue.A5 m' c = Cert.KernelIdeal.EdgeValue.A5 m c := h5
  have e6 : Cert.ReferenceIdeal.EdgeValue.A6 m' c = Cert.KernelIdeal.EdgeValue.A6 m c := h6
  have e7 : Cert.ReferenceIdeal.EdgeValue.A7 m' c = Cert.KernelIdeal.EdgeValue.A7 m c := h7
  have e8 : Cert.ReferenceIdeal.EdgeValue.A8 m' c = Cert.KernelIdeal.EdgeValue.A8 m c := h8
  have e9 : Cert.ReferenceIdeal.EdgeValue.A9 m' c = Cert.KernelIdeal.EdgeValue.A9 m c := h9
  have e10 : Cert.ReferenceIdeal.EdgeValue.A10 m' c = Cert.KernelIdeal.EdgeValue.A10 m c := h10
  refine ⟨(h c).1.trans ?_, (h c).2.1.trans ?_, (h c).2.2⟩
  · rw [e0, e1, e2, e3, e4, e5, e6, e7, e8, e9, e10]
  · rw [e0, e1, e2, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
